-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1081 : Shape := ⟨2, ![100000, 1081]⟩
abbrev S1081x32 : Shape := ⟨2, ![1081, 32]⟩
abbrev S32 : Shape := ⟨1, ![32]⟩
abbrev S32x8 : Shape := ⟨2, ![32, 8]⟩
abbrev S8 : Shape := ⟨1, ![8]⟩
abbrev S8x5 : Shape := ⟨2, ![8, 5]⟩
abbrev S5 : Shape := ⟨1, ![5]⟩
abbrev S2x3200000 : Shape := ⟨2, ![2, 3200000]⟩
abbrev S100000 : Shape := ⟨1, ![100000]⟩
abbrev S_ : Shape := ⟨0, ![]⟩

class Facts : Prop where
  bcast_S_S100000x1081 : S_.BroadcastsInDim S100000x1081 (![] : Fin 0 → Fin S100000x1081.rank)
  reducesTo_S100000x1081_S_d0_1 : S100000x1081.ReducesTo [0, 1] S_
  h_S_ : 0 < S_.numel
  bcast_S_S1081x32 : S_.BroadcastsInDim S1081x32 (![] : Fin 0 → Fin S1081x32.rank)
  reducesTo_S1081x32_S_d0_1 : S1081x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S8x5 : S_.BroadcastsInDim S8x5 (![] : Fin 0 → Fin S8x5.rank)
  reducesTo_S8x5_S_d0_1 : S8x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S8 .f32) (main_arg5 : FVec F S8x5 .f32) (main_arg6 : FVec F S5 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x5 .f32 := Host.absf main_arg5
  let main_cst_8 : FVec F S_ .f32 := constant S_ .f32 0x7F800000#32
  let main_v25 : FVec F S8x5 .f32 := broadcastInDim S8x5 ![] bcast_S_S8x5 main_cst_8
  let main_v26 : IVec S8x5 1 := cmpf .olt main_v24 main_v25
  let main_c_9 : IVec S_ 1 := constantI S_ 1 1#1
  let main_v27 : IVec S_ 1 := (fun x v => Host.reduce IntOp.andi x v reducesTo_S8x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x1081 .f32) (main_arg1 : FVec F S1081x32 .f32) (main_arg2 : FVec F S32 .f32) (main_arg3 : FVec F S32x8 .f32) (main_arg4 : FVec F S8 .f32) (main_arg5 : FVec F S8x5 .f32) (main_arg6 : FVec F S5 .f32) (main_arg7 : IVec S2x3200000 32) (main_arg8 : IVec S100000 32) : IVec S_ 1 :=
  let main_v0 : FVec F S100000x1081 .f32 := Host.absf main_arg0
  let main_cst : FVec F S_ .f32 := constant S_ .f32 0x7F800000#32
  let main_v1 : FVec F S100000x1081 .f32 := broadcastInDim S100000x1081 ![] bcast_S_S100000x1081 main_cst
  let main_v2 : IVec S100000x1081 1 := cmpf .olt main_v0 main_v1
  let main_c : IVec S_ 1 := constantI S_ 1 1#1
  let main_v3 : IVec S_ 1 := (fun x v => Host.reduce IntOp.andi x v reducesTo_S100000x1081_S_d0_1 h_S_) main_v2 main_c
  let main_v4 : FVec F S1081x32 .f32 := Host.absf main_arg1
  let main_cst_0 : FVec F S_ .f32 := constant S_ .f32 0x7F800000#32
  let main_v5 : FVec F S1081x32 .f32 := broadcastInDim S1081x32 ![] bcast_S_S1081x32 main_cst_0
  let main_v6 : IVec S1081x32 1 := cmpf .olt main_v4 main_v5
  let main_c_1 : IVec S_ 1 := constantI S_ 1 1#1
  let main_v7 : IVec S_ 1 := (fun x v => Host.reduce IntOp.andi x v reducesTo_S1081x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg3
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg4 main_arg5 main_arg6 main_v13 main_v16
-- ==== Kernel.lean ====
abbrev S100000x1081 : Shape := ⟨2, ![100000, 1081]⟩
abbrev S1081x32 : Shape := ⟨2, ![1081, 32]⟩
abbrev S32 : Shape := ⟨1, ![32]⟩
abbrev S32x8 : Shape := ⟨2, ![32, 8]⟩
abbrev S8 : Shape := ⟨1, ![8]⟩
abbrev S8x5 : Shape := ⟨2, ![8, 5]⟩
abbrev S5 : Shape := ⟨1, ![5]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S1x32 : Shape := ⟨2, ![1, 32]⟩
abbrev S1x8 : Shape := ⟨2, ![1, 8]⟩
abbrev S100000x32 : Shape := ⟨2, ![100000, 32]⟩
abbrev S2000x1081 : Shape := ⟨2, ![2000, 1081]⟩
abbrev S2000x1 : Shape := ⟨2, ![2000, 1]⟩
abbrev S2000x32 : Shape := ⟨2, ![2000, 32]⟩
abbrev S3200000x32 : Shape := ⟨2, ![3200000, 32]⟩
abbrev S100000x8 : Shape := ⟨2, ![100000, 8]⟩
abbrev S2000x8 : Shape := ⟨2, ![2000, 8]⟩
abbrev S3200000x8 : Shape := ⟨2, ![3200000, 8]⟩
abbrev S64x8 : Shape := ⟨2, ![64, 8]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 78
  | .vmem => 26
  | .smem => 0
  | _ => 0

abbrev bufTy : (tb : Table) → Fin (tcTables nBuf tb) → BufTy
  | .hbm, ⟨0, _⟩ => ⟨S100000x1081, .f32⟩
  | .hbm, ⟨1, _⟩ => ⟨S1081x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S8x5, .f32⟩
  | .hbm, ⟨6, _⟩ => ⟨S5, .f32⟩
  | .hbm, ⟨7, _⟩ => ⟨S2x3200000, .i32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x32, .f32⟩
  | .hbm, ⟨28, _⟩ => ⟨S1x8, .f32⟩
  | .hbm, ⟨29, _⟩ => ⟨S100000x32, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x32, .f32⟩
  | .hbm, ⟨39, _⟩ => ⟨S_, .f32⟩
  | .hbm, ⟨40, _⟩ => ⟨S100000x32, .f32⟩
  | .hbm, ⟨41, _⟩ => ⟨S3200000x1, .i32⟩
  | .hbm, ⟨42, _⟩ => ⟨S100000x32, .f32⟩
  | .hbm, ⟨43, _⟩ => ⟨S100000x8, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x8, .f32⟩
  | .hbm, ⟨53, _⟩ => ⟨S_, .f32⟩
  | .hbm, ⟨54, _⟩ => ⟨S100000x8, .f32⟩
  | .hbm, ⟨55, _⟩ => ⟨S3200000x1, .i32⟩
  | .hbm, ⟨56, _⟩ => ⟨S100000x8, .f32⟩
  | .hbm, ⟨57, _⟩ => ⟨S100000x8, .f32⟩
  | .hbm, ⟨58, _⟩ => ⟨S_, .f32⟩
  | .hbm, ⟨59, _⟩ => ⟨S64x8, .f32⟩
  | .hbm, ⟨60, _⟩ => ⟨S100000x1, .i32⟩
  | .hbm, ⟨61, _⟩ => ⟨S64x8, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S64, .f32⟩
  | .hbm, ⟨66, _⟩ => ⟨S100000x1, .i32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64x1, .f32⟩
  | .hbm, ⟨72, _⟩ => ⟨S64x8, .f32⟩
  | .hbm, ⟨73, _⟩ => ⟨S64x8, .f32⟩
  | .hbm, ⟨74, _⟩ => ⟨S64x5, .f32⟩
  | .hbm, ⟨75, _⟩ => ⟨S1x5, .f32⟩
  | .hbm, ⟨76, _⟩ => ⟨S64x5, .f32⟩
  | .hbm, ⟨77, _⟩ => ⟨S64x5, .f32⟩
  | .local _ .vmem, ⟨0, _⟩ => ⟨S2000x1081, .f32⟩
  | .local _ .vmem, ⟨1, _⟩ => ⟨S2000x1081, .f32⟩
  | .local _ .vmem, ⟨2, _⟩ => ⟨S1081x32, .f32⟩
  | .local _ .vmem, ⟨3, _⟩ => ⟨S2000x1, .f32⟩
  | .local _ .vmem, ⟨4, _⟩ => ⟨S2000x1, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x1, .f32⟩
  | .local _ .vmem, ⟨12, _⟩ => ⟨S2000x1, .f32⟩
  | .local _ .vmem, ⟨13, _⟩ => ⟨S1x32, .f32⟩
  | .local _ .vmem, ⟨14, _⟩ => ⟨S32x8, .f32⟩
  | .local _ .vmem, ⟨15, _⟩ => ⟨S2000x8, .f32⟩
  | .local _ .vmem, ⟨16, _⟩ => ⟨S2000x8, .f32⟩
  | .local _ .vmem, ⟨17, _⟩ => ⟨S2000x8, .f32⟩
  | .local _ .vmem, ⟨18, _⟩ => ⟨S2000x8, .f32⟩
  | .local _ .vmem, ⟨19, _⟩ => ⟨S2000x8, .f32⟩
  | .local _ .vmem, ⟨20, _⟩ => ⟨S2000x8, .f32⟩
  | .local _ .vmem, ⟨21, _⟩ => ⟨S2000x1, .f32⟩
  | .local _ .vmem, ⟨22, _⟩ => ⟨S2000x1, .f32⟩
  | .local _ .vmem, ⟨23, _⟩ => ⟨S1x8, .f32⟩
  | .local _ .vmem, ⟨24, _⟩ => ⟨S2000x8, .f32⟩
  | .local _ .vmem, ⟨25, _⟩ => ⟨S2000x8, .f32⟩
  | _, _ => ⟨S100000x1081, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1081 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1081x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S8_S1x8_1 : S8.BroadcastsInDim S1x8 (![1] : Fin 1 → Fin S1x8.rank)
  inb_S2000x1081_S2000x1081_0_0 : ∀ a, (![0, 0] : Fin 2 → Nat) a + S2000x1081.size a ≤ S2000x1081.size a
  h_S2000x1081 : 0 < S2000x1081.numel
  bitsLt_bf16_f32 : FTy.bits .bf16 < FTy.bits .f32
  inb_S1081x32_S1081x32_0_0 : ∀ a, (![0, 0] : Fin 2 → Nat) a + S1081x32.size a ≤ S1081x32.size a
  h_S1081x32 : 0 < S1081x32.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  shapeCasts_S2000x32_S2000x32 : S2000x32.ShapeCasts S2000x32
  inb_S32x8_S32x8_0_0 : ∀ a, (![0, 0] : Fin 2 → Nat) a + S32x8.size a ≤ S32x8.size a
  h_S32x8 : 0 < S32x8.numel
  broadcasts_S2000x1_S2000x8 : S2000x1.Broadcasts S2000x8
  inb_S2000x8_S2000x8_0_0 : ∀ a, (![0, 0] : Fin 2 → Nat) a + S2000x8.size a ≤ S2000x8.size a
  h_S2000x8 : 0 < S2000x8.numel
  bcast_S_S100000x8 : S_.BroadcastsInDim S100000x8 (![] : Fin 0 → Fin S100000x8.rank)
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  shapeCasts_S2000x8_S2000x8 : S2000x8.ShapeCasts S2000x8
  bcast_S_S64x8 : S_.BroadcastsInDim S64x8 (![] : Fin 0 → Fin S64x8.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S3200000x1_S3200000_n_0_0_1_wf : ScatterDims.WF S100000 S3200000x1 S3200000 [] [0] [0] 1
  dot_S2000x1081_S1081x32_S2000x32_1_0_0_1_n_n_wf : DotDims.WF S2000x1081 S1081x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x8_S2000x8_1_0_0_1_n_n_wf : DotDims.WF S2000x32 S32x8 S2000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  dot_S64x8_S8x5_S64x5_1_0_0_1_n_n_wf : DotDims.WF S64x8 S8x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1081.size a ≤ S100000x1081.size a
  hwx0_0 : ∀ i : grid0.Coords, EltTy.bits .f32 = 32 ∨ (Rect.block (s := S100000x1081) S2000x1081.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1081x32.size a ≤ S1081x32.size a
  hwx0_1 : ∀ i : grid0.Coords, EltTy.bits .f32 = 32 ∨ (Rect.block (s := S1081x32) S1081x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x8.size a ≤ S32x8.size a
  hwx1_4 : ∀ i : grid1.Coords, EltTy.bits .f32 = 32 ∨ (Rect.block (s := S32x8) S32x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x8.size a ≤ S100000x8.size a
  hwx1_5 : ∀ i : grid1.Coords, EltTy.bits .f32 = 32 ∨ (Rect.block (s := S100000x8) S2000x8.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S100000x8.size a
  hwx2_0 : ∀ i : grid2.Coords, EltTy.bits .f32 = 32 ∨ (Rect.block (s := S100000x8) S2000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x8.size a ≤ S100000x8.size a
  hwx2_1 : ∀ i : grid2.Coords, EltTy.bits .f32 = 32 ∨ (Rect.block (s := S100000x8) S2000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x8.size a ≤ S100000x8.size a
  hwx2_4 : ∀ i : grid2.Coords, EltTy.bits .f32 = 32 ∨ (Rect.block (s := S100000x8) S2000x8.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x1081_S1081x32_S2000x32_1_0_0_1_n_n : DotDims S2000x1081 S1081x32 S2000x32 where
  lhsContracting := [1]
  rhsContracting := [0]
  lhsNonContracting := [0]
  rhsNonContracting := [1]
  lhsBatch := []
  rhsBatch := []
  wf := dot_S2000x1081_S1081x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x8_S2000x8_1_0_0_1_n_n : DotDims S2000x32 S32x8 S2000x8 where
  lhsContracting := [1]
  rhsContracting := [0]
  lhsNonContracting := [0]
  rhsNonContracting := [1]
  lhsBatch := []
  rhsBatch := []
  wf := dot_S2000x32_S32x8_S2000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x8_S8x5_S64x5_1_0_0_1_n_n : DotDims S64x8 S8x5 S64x5 where
  lhsContracting := [1]
  rhsContracting := [0]
  lhsNonContracting := [0]
  rhsNonContracting := [1]
  lhsBatch := []
  rhsBatch := []
  wf := dot_S64x8_S8x5_S64x5_1_0_0_1_n_n_wf

abbrev win0_0 : Pipeline.Window sig grid0 :=
  Pipeline.Window.ofSpec (Memref.whole main_arg0) S2000x1081.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1081x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S32x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x1081 : Shape := ⟨2, ![100000, 1081]⟩
abbrev S1081x32 : Shape := ⟨2, ![1081, 32]⟩
abbrev S32 : Shape := ⟨1, ![32]⟩
abbrev S32x8 : Shape := ⟨2, ![32, 8]⟩
abbrev S8 : Shape := ⟨1, ![8]⟩
abbrev S8x5 : Shape := ⟨2, ![8, 5]⟩
abbrev S5 : Shape := ⟨1, ![5]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x8 : Shape := ⟨2, ![100000, 8]⟩
abbrev S3300000x8 : Shape := ⟨2, ![3300000, 8]⟩
abbrev S1x8 : Shape := ⟨2, ![1, 8]⟩
abbrev S64x8 : Shape := ⟨2, ![64, 8]⟩
abbrev S100000x1 : Shape := ⟨2, ![100000, 1]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 110
  | .vmem => 0
  | .smem => 0
  | _ => 0

abbrev bufTy : (tb : Table) → Fin (tcTables nBuf tb) → BufTy
  | .hbm, ⟨0, _⟩ => ⟨S100000x1081, .f32⟩
  | .hbm, ⟨1, _⟩ => ⟨S1081x32, .f32⟩
  | .hbm, ⟨2, _⟩ => ⟨S32, .f32⟩
  | .hbm, ⟨3, _⟩ => ⟨S32x8, .f32⟩
  | .hbm, ⟨4, _⟩ => ⟨S8, .f32⟩
  | .hbm, ⟨5, _⟩ => ⟨S8x5, .f32⟩
  | .hbm, ⟨6, _⟩ => ⟨S5, .f32⟩
  | .hbm, ⟨7, _⟩ => ⟨S2x3200000, .i32⟩
  | .hbm, ⟨8, _⟩ => ⟨S100000, .i32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x32, .f32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S100000x8, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x8, .f32⟩
  | .hbm, ⟨78, _⟩ => ⟨S3300000x8, .f32⟩
  | .hbm, ⟨79, _⟩ => ⟨S3300000x8, .f32⟩
  | .hbm, ⟨80, _⟩ => ⟨S_, .f32⟩
  | .hbm, ⟨81, _⟩ => ⟨S100000x8, .f32⟩
  | .hbm, ⟨82, _⟩ => ⟨S3300000x1, .i32⟩
  | .hbm, ⟨83, _⟩ => ⟨S100000x8, .f32⟩
  | .hbm, ⟨84, _⟩ => ⟨S1x8, .f32⟩
  | .hbm, ⟨85, _⟩ => ⟨S100000x8, .f32⟩
  | .hbm, ⟨86, _⟩ => ⟨S100000x8, .f32⟩
  | .hbm, ⟨87, _⟩ => ⟨S_, .f32⟩
  | .hbm, ⟨88, _⟩ => ⟨S100000x8, .f32⟩
  | .hbm, ⟨89, _⟩ => ⟨S100000x8, .f32⟩
  | .hbm, ⟨90, _⟩ => ⟨S_, .f32⟩
  | .hbm, ⟨91, _⟩ => ⟨S64x8, .f32⟩
  | .hbm, ⟨92, _⟩ => ⟨S100000x1, .i32⟩
  | .hbm, ⟨93, _⟩ => ⟨S64x8, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S64, .f32⟩
  | .hbm, ⟨98, _⟩ => ⟨S100000x1, .i32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64x1, .f32⟩
  | .hbm, ⟨104, _⟩ => ⟨S64x8, .f32⟩
  | .hbm, ⟨105, _⟩ => ⟨S64x8, .f32⟩
  | .hbm, ⟨106, _⟩ => ⟨S64x5, .f32⟩
  | .hbm, ⟨107, _⟩ => ⟨S1x5, .f32⟩
  | .hbm, ⟨108, _⟩ => ⟨S64x5, .f32⟩
  | .hbm, ⟨109, _⟩ => ⟨S64x5, .f32⟩
  | _, _ => ⟨S100000x1081, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1081_S1081x32_S100000x32_1_0_0_1_n_n_wf : DotDims.WF S100000x1081 S1081x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x8_S100000x8_1_0_0_1_n_n_wf : DotDims.WF S100000x32 S32x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  dot_S64x8_S8x5_S64x5_1_0_0_1_n_n_wf : DotDims.WF S64x8 S8x5 S64x5 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1081_S1081x32_S100000x32_1_0_0_1_n_n : DotDims S100000x1081 S1081x32 S100000x32 where
  lhsContracting := [1]
  rhsContracting := [0]
  lhsNonContracting := [0]
  rhsNonContracting := [1]
  lhsBatch := []
  rhsBatch := []
  wf := dot_S100000x1081_S1081x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x8_S8x5_S64x5_1_0_0_1_n_n : DotDims S64x8 S8x5 S64x5 where
  lhsContracting := [1]
  rhsContracting := [0]
  lhsNonContracting := [0]
  rhsNonContracting := [1]
  lhsBatch := []
  rhsBatch := []
  wf := dot_S64x8_S8x5_S64x5_1_0_0_1_n_n_wf

class Facts : Prop extends Facts₀ where

variable [Facts]
-- ==== Proof.Spec.lean ====
/-
  The node-level functions of a two-layer graph convolution, index by index, over the extended reals.

  `lin`: a row-scaled matrix product, `(x · W)[i, c] · d[i]` — the linear map applied first, then the row's degree factor.
  `post`: the rest of a layer, `max (d[i] · (agg[i, c] + own[i, c]) + b[c]) 0` — the aggregated neighbours plus the
  node's own scaled row, scaled once more by the degree factor, the bias added, the rectifier applied.
-/
import Idealize.ShloMosaic.Lib.ValueIdx
import Idealize.ShloMosaic.PureOps.Ideal

noncomputable section

open scoped BigOperators

namespace Cert.Spec

open Idealize.ShloMosaic Idealize.ShloMosaic.ValueIdx

/-- The row-scaled product: entry `(i, c)` is `(∑ k, x[i, k] · W[k, c]) · d[i, 0]`. -/
def lin (N K C : Nat) (x : (⟨2, ![N, K]⟩ : Shape).Idx → EReal) (W : (⟨2, ![K, C]⟩ : Shape).Idx → EReal)
    (d : (⟨2, ![N, 1]⟩ : Shape).Idx → EReal) : (⟨2, ![N, C]⟩ : Shape).Idx → EReal :=
  fun j => (∑ k : Fin K, x (ix2 (j 0) k) * W (ix2 k (j 1))) * d (ix2 (j 0) 0)

/-- The layer's epilogue: entry `(i, c)` is `max (d[i, 0] · (agg[i, c] + own[i, c]) + b[0, c]) 0`. -/
def post (N C : Nat) (agg own : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun j => max (d (ix2 (j 0) 0) * (agg j + own j) + b (ix2 0 (j 1))) 0

end Cert.Spec

end
-- ==== Proof.RegionLemmas.lean ====
/-
  Small facts the three node-level regions share.

  Every region works on row blocks: block `t` of an array with 100000 rows holds rows `2000·t … 2000·t + 1999`, and the
  per-row degree factor is a one-column array that each region stretches across its row. Here: the two-axis zero offset
  spelt as a constant function; a column `[a, 1]` stretched to `[a, b]` read at an entry; and the arithmetic that places a
  row in its block.
-/
import Idealize.ShloMosaic.Lib.Pipeline.Value
import Idealize.ShloMosaic.Lib.ValueIdx
import Idealize.ShloMosaic.Lib.ValueLayout

namespace Cert.RegionLemmas

open Idealize.ShloMosaic Idealize.ShloMosaic.ValueIdx

/-- The zero offset on two axes is the constant zero function. -/
theorem hz : (![0, 0] : Fin 2 → Nat) = fun _ => 0 := funext fun a => by fin_cases a <;> rfl

/-- A column `[a, 1]` stretched to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of 100000 rows lies in the block of 2000 rows numbered `r / 2000`, one of 50. -/
theorem row_block (r : Nat) (hr : r < 100000) :
    r / 2000 < 50 ∧ r / 2000 * 2000 ≤ r ∧ r < r / 2000 * 2000 + 2000 := by omega

end Cert.RegionLemmas
-- ==== Proof.Region0.lean ====
/-
  The first node-level region: layer one's scaled product, entry by entry.

  Each of the region's 50 steps takes rows `2000·t … 2000·t + 1999` of the node features and of the degree factor and
  the whole weight matrix, multiplies the row block by the weights and scales every row of the product by its degree
  factor. The blocks tile the 100000 rows, so after the last step the result is `(x · W)[i, c] · d[i]` everywhere.
-/
import proofs.«138896_j86277303042435_2_alg».proof.Proof.Gen.KernelIdeal.Frame
import proofs.«138896_j86277303042435_2_alg».proof.Proof.Spec
import proofs.«138896_j86277303042435_2_alg».proof.Proof.RegionLemmas
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen Cert.RegionLemmas

/-- The product's left operand is read in the output's row. -/
theorem lhs0_0 (i : S2000x32.Idx) (q : dot_S2000x1081_S1081x32_S2000x32_1_0_0_1_n_n.contr.Idx) :
    (dot_S2000x1081_S1081x32_S2000x32_1_0_0_1_n_n.lhsIdx i q 0).val = (i 0).val := by
  unfold DotDims.lhsIdx
  rw [dif_neg (show ¬(0 : Fin S2000x1081.rank) ∈ dot_S2000x1081_S1081x32_S2000x32_1_0_0_1_n_n.lhsBatch by decide), dif_pos (show (0 : Fin S2000x1081.rank) ∈ dot_S2000x1081_S1081x32_S2000x32_1_0_0_1_n_n.lhsNonContracting by decide)]
  rfl
/-- … and in the summed position's column. -/
theorem lhs0_1 (i : S2000x32.Idx) (q : dot_S2000x1081_S1081x32_S2000x32_1_0_0_1_n_n.contr.Idx) :
    (dot_S2000x1081_S1081x32_S2000x32_1_0_0_1_n_n.lhsIdx i q 1).val = (q ⟨0, by decide⟩).val :=
  dot_S2000x1081_S1081x32_S2000x32_1_0_0_1_n_n.lhsIdx_val_of_single rfl i q
/-- The right operand is read in the summed position's row -/
theorem rhs0_0 (i : S2000x32.Idx) (q : dot_S2000x1081_S1081x32_S2000x32_1_0_0_1_n_n.contr.Idx) :
    (dot_S2000x1081_S1081x32_S2000x32_1_0_0_1_n_n.rhsIdx i q 0).val = (q ⟨0, by decide⟩).val :=
  dot_S2000x1081_S1081x32_S2000x32_1_0_0_1_n_n.rhsIdx_val_of_single rfl i q
/-- … and in the output's column. -/
theorem rhs0_1 (i : S2000x32.Idx) (q : dot_S2000x1081_S1081x32_S2000x32_1_0_0_1_n_n.contr.Idx) :
    (dot_S2000x1081_S1081x32_S2000x32_1_0_0_1_n_n.rhsIdx i q 1).val = (i 1).val := by
  unfold DotDims.rhsIdx
  rw [dif_neg (show ¬(1 : Fin S1081x32.rank) ∈ dot_S2000x1081_S1081x32_S2000x32_1_0_0_1_n_n.rhsBatch by decide), dif_pos (show (1 : Fin S1081x32.rank) ∈ dot_S2000x1081_S1081x32_S2000x32_1_0_0_1_n_n.rhsNonContracting by decide)]
  rfl

/-- The block product into a zero accumulator, at entry `(p, q)`: the sum over the 1081 inner positions of row `p` of
    the left block against column `q` of the right one. -/
theorem matmul0_apply (x : FVec Ideal S2000x1081 .bf16) (W : FVec Ideal S1081x32 .bf16) (p : Fin 2000) (q : Fin 32) :
    matmul dot_S2000x1081_S1081x32_S2000x32_1_0_0_1_n_n none x W (constant S2000x32 .f32 0x00000000#32) (ix2 p q)
      = ∑ k : Fin 1081, x (ix2 p k) * W (ix2 k q) := by
  simp only [matmul]
  rw [Ideal.matmul_constant_zero_apply, ← Equiv.sum_comp (contrEquiv1 dot_S2000x1081_S1081x32_S2000x32_1_0_0_1_n_n 1081 rfl rfl).symm]
  refine Finset.sum_congr rfl fun k _ => ?_
  have hk := contrEquiv1_symm_val dot_S2000x1081_S1081x32_S2000x32_1_0_0_1_n_n 1081 rfl rfl k
  have el : dot_S2000x1081_S1081x32_S2000x32_1_0_0_1_n_n.lhsIdx (ix2 p q) ((contrEquiv1 dot_S2000x1081_S1081x32_S2000x32_1_0_0_1_n_n 1081 rfl rfl).symm k) = ix2 p k := funext fun a => Fin.ext (by
    match a with
    | ⟨0, _⟩ => exact lhs0_0 _ _
    | ⟨1, _⟩ => exact (lhs0_1 _ _).trans hk)
  have er : dot_S2000x1081_S1081x32_S2000x32_1_0_0_1_n_n.rhsIdx (ix2 p q) ((contrEquiv1 dot_S2000x1081_S1081x32_S2000x32_1_0_0_1_n_n 1081 rfl rfl).symm k) = ix2 k q := funext fun a => Fin.ext (by
    match a with
    | ⟨0, _⟩ => exact (rhs0_0 _ _).trans hk
    | ⟨1, _⟩ => exact rhs0_1 _ _)
  rw [el, er]

/-- One step's stored value at entry `(p, q)` of its block: row `p` of the feature block against column `q` of the
    weights, times the degree factor of row `p` (the narrowing of the operands changes nothing over the extended reals). -/
theorem pay0_apply (x : Vec Ideal S2000x1081 .f32) (W : Vec Ideal S1081x32 .f32) (d : Vec Ideal S2000x1 .f32)
    (p : Fin 2000) (q : Fin 32) :
    k0_pay1 (F := Ideal) x W d (ix2 p q)
      = (∑ k : Fin 1081, x (ix2 p k) * W (ix2 k q)) * d (ix2 p (0 : Fin 1)) := by
  unfold k0_pay1
  simp only [shapeCast_self]
  rw [mulf_apply, broadcastTo_a1_ab_apply, matmul0_apply]
  rfl

/-- Where each window's block sits at step `t`: the three row-blocked windows at block row `t`, the weights at their
    one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What step `t` writes back is block `t` of the scaled product of the three operand arrays. -/
theorem flushed0 (c : Dev nD) (t : Fin cfg0.N) :
    (dat0 (F := Ideal) V c).flushed 3 t = ((cfg0.win 3).blk t).view.read (Elt Ideal)
      (Cert.Spec.lin 100000 1081 32 (V c main_arg0) (V c main_arg1) (V c main_v13)) := by
  show (cfg0.win 3).cut (grid0.coords t) ((dat0 V c).after 3 t) = _
  rw [after0_3]
  unfold out0_3
  rw [View.canon_unit_zero hz]
  simp only [View.ld_unit_zero (S := S2000x1081) hz, View.ld_unit_zero (S := S1081x32) hz, View.ld_unit_zero (S := S2000x1) hz]
  obtain ⟨e00, e01, e10, e11, e20, e21, e30, e31⟩ := idx0 t
  funext j
  obtain ⟨p, q, rfl⟩ : ∃ (p : Fin 2000) (q : Fin 32), j = ix2 p q := ⟨j 0, j 1, eq_ix2 j⟩
  refine (pay0_apply (iblk0 V c 0 t) (iblk0 V c 1 t) (iblk0 V c 2 t) p q).trans ?_
  have ht : t.val < 50 := lt_of_lt_of_eq t.isLt N_0
  have hr : 2000 * t.val + p.val < 100000 := by have := p.isLt; omega
  have r0 : ∀ k : Fin 1081, iblk0 V c 0 t (ix2 p k) = V c main_arg0 (ix2 (⟨2000 * t.val + p.val, hr⟩ : Fin 100000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = 2000 * t.val + p.val; omega
    | ⟨1, _⟩ => show win0_0.index t (1 : Fin 2) * 1081 + 1 * k.val = k.val; omega
  have r1 : ∀ k : Fin 1081, iblk0 V c 1 t (ix2 k q) = V c main_arg1 (ix2 k q) := fun k => by
    show V c main_arg1 (((cfg0.win 1).blk t).view.emb (ix2 k q)) = _
    refine congrArg (V c main_arg1) (funext fun a => Fin.ext ?_)
    match a with
    | ⟨0, _⟩ => show win0_1.index t (0 : Fin 2) * 1081 + 1 * k.val = k.val; omega
    | ⟨1, _⟩ => show win0_1.index t (1 : Fin 2) * 32 + 1 * q.val = q.val; omega
  have r2 : iblk0 V c 2 t (ix2 p (0 : Fin 1)) = V c main_v13 (ix2 (⟨2000 * t.val + p.val, hr⟩ : Fin 100000) (0 : Fin 1)) := by
    show V c main_v13 (((cfg0.win 2).blk t).view.emb (ix2 p (0 : Fin 1))) = _
    refine congrArg (V c main_v13) (funext fun a => Fin.ext ?_)
    match a with
    | ⟨0, _⟩ => show win0_2.index t (0 : Fin 2) * 2000 + 1 * p.val = 2000 * t.val + p.val; omega
    | ⟨1, _⟩ => show win0_2.index t (1 : Fin 2) * 1 + 1 * 0 = 0; omega
  have r3 : ((cfg0.win 3).blk t).view.emb (ix2 p q) = ix2 (⟨2000 * t.val + p.val, hr⟩ : Fin 100000) q := by
    refine funext fun a => Fin.ext ?_
    match a with
    | ⟨0, _⟩ => show win0_3.index t (0 : Fin 2) * 2000 + 1 * p.val = 2000 * t.val + p.val; omega
    | ⟨1, _⟩ => show win0_3.index t (1 : Fin 2) * 32 + 1 * q.val = q.val; omega
  rw [r2, View.read_apply, r3, Finset.sum_congr rfl fun k _ => by rw [r0 k, r1 k]]
  rfl

/-- Every row lies in one step's block, so after the last step the region's result array is the scaled product of the
    three operand arrays as the region found them. -/
theorem final0 (c : Dev nD) :
    (dat0 (F := Ideal) V c).arrAt 3 cfg0.N
      = Cert.Spec.lin 100000 1081 32 (V c main_arg0) (V c main_arg1) (V c main_v13) :=
  (dat0 (F := Ideal) V c).arrAt_eq_of_cover 3 _ (fun t _ => flushed0 V c t) fun i => by
    have hi0 : (i 0).val < 100000 := (i 0).isLt
    have hi1 : (i 1).val < 32 := (i 1).isLt
    obtain ⟨hb, hlo, hhi⟩ := row_block (i 0).val hi0
    let t : Fin cfg0.N := ⟨(i 0).val / 2000, lt_of_lt_of_eq hb N_0.symm⟩
    obtain ⟨-, -, -, -, -, -, e30, e31⟩ := idx0 t
    refine ⟨t, flush0_3 t, ?_⟩
    show i ∈ ((View.whole main_v16).slice (win0_3.rect t)).set
    rw [View.set_slice_whole, Rect.mem_set_unit]
    intro a
    match a with
    | ⟨0, _⟩ =>
      show win0_3.index t (0 : Fin 2) * 2000 ≤ (i 0).val ∧ (i 0).val < win0_3.index t (0 : Fin 2) * 2000 + 2000
      rw [e30]; exact ⟨hlo, hhi⟩
    | ⟨1, _⟩ =>
      show win0_3.index t (1 : Fin 2) * 32 ≤ (i 1).val ∧ (i 1).val < win0_3.index t (1 : Fin 2) * 32 + 32
      rw [e31]; omega

end Cert.KernelIdeal.Regions

end
-- ==== Proof.Region1.lean ====
/-
  The second node-level region: layer one's epilogue followed by layer two's scaled product, entry by entry.

  Each of the region's 50 steps takes rows `2000·t … 2000·t + 1999` of the aggregated neighbours, of the node's own
  scaled rows and of the degree factor, the whole bias row and the whole second weight matrix. It forms the hidden row
  block `h[i, k] = max (d[i] · (agg[i, k] + own[i, k]) + b[k]) 0`, multiplies it by the weights and scales every row of
  the product by its degree factor. The blocks tile the 100000 rows, so after the last step the result is
  `(h · W)[i, c] · d[i]` everywhere, with `h` the epilogue of the whole operand arrays.
-/
import proofs.«138896_j86277303042435_2_alg».proof.Proof.Gen.KernelIdeal.Frame
import proofs.«138896_j86277303042435_2_alg».proof.Proof.Spec
import proofs.«138896_j86277303042435_2_alg».proof.Proof.RegionLemmas
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen Cert.RegionLemmas

/-- The product's left operand is read in the output's row. -/
theorem lhs1_0 (i : S2000x8.Idx) (q : dot_S2000x32_S32x8_S2000x8_1_0_0_1_n_n.contr.Idx) :
    (dot_S2000x32_S32x8_S2000x8_1_0_0_1_n_n.lhsIdx i q 0).val = (i 0).val := by
  unfold DotDims.lhsIdx
  rw [dif_neg (show ¬(0 : Fin S2000x32.rank) ∈ dot_S2000x32_S32x8_S2000x8_1_0_0_1_n_n.lhsBatch by decide), dif_pos (show (0 : Fin S2000x32.rank) ∈ dot_S2000x32_S32x8_S2000x8_1_0_0_1_n_n.lhsNonContracting by decide)]
  rfl
/-- … and in the summed position's column. -/
theorem lhs1_1 (i : S2000x8.Idx) (q : dot_S2000x32_S32x8_S2000x8_1_0_0_1_n_n.contr.Idx) :
    (dot_S2000x32_S32x8_S2000x8_1_0_0_1_n_n.lhsIdx i q 1).val = (q ⟨0, by decide⟩).val :=
  dot_S2000x32_S32x8_S2000x8_1_0_0_1_n_n.lhsIdx_val_of_single rfl i q
/-- The right operand is read in the summed position's row -/
theorem rhs1_0 (i : S2000x8.Idx) (q : dot_S2000x32_S32x8_S2000x8_1_0_0_1_n_n.contr.Idx) :
    (dot_S2000x32_S32x8_S2000x8_1_0_0_1_n_n.rhsIdx i q 0).val = (q ⟨0, by decide⟩).val :=
  dot_S2000x32_S32x8_S2000x8_1_0_0_1_n_n.rhsIdx_val_of_single rfl i q
/-- … and in the output's column. -/
theorem rhs1_1 (i : S2000x8.Idx) (q : dot_S2000x32_S32x8_S2000x8_1_0_0_1_n_n.contr.Idx) :
    (dot_S2000x32_S32x8_S2000x8_1_0_0_1_n_n.rhsIdx i q 1).val = (i 1).val := by
  unfold DotDims.rhsIdx
  rw [dif_neg (show ¬(1 : Fin S32x8.rank) ∈ dot_S2000x32_S32x8_S2000x8_1_0_0_1_n_n.rhsBatch by decide), dif_pos (show (1 : Fin S32x8.rank) ∈ dot_S2000x32_S32x8_S2000x8_1_0_0_1_n_n.rhsNonContracting by decide)]
  rfl

/-- The block product into a zero accumulator, at entry `(p, q)`: the sum over the 32 inner positions of row `p` of
    the left block against column `q` of the right one. -/
theorem matmul1_apply (x : FVec Ideal S2000x32 .bf16) (W : FVec Ideal S32x8 .bf16) (p : Fin 2000) (q : Fin 8) :
    matmul dot_S2000x32_S32x8_S2000x8_1_0_0_1_n_n none x W (constant S2000x8 .f32 0x00000000#32) (ix2 p q)
      = ∑ k : Fin 32, x (ix2 p k) * W (ix2 k q) := by
  simp only [matmul]
  rw [Ideal.matmul_constant_zero_apply, ← Equiv.sum_comp (contrEquiv1 dot_S2000x32_S32x8_S2000x8_1_0_0_1_n_n 32 rfl rfl).symm]
  refine Finset.sum_congr rfl fun k _ => ?_
  have hk := contrEquiv1_symm_val dot_S2000x32_S32x8_S2000x8_1_0_0_1_n_n 32 rfl rfl k
  have el : dot_S2000x32_S32x8_S2000x8_1_0_0_1_n_n.lhsIdx (ix2 p q) ((contrEquiv1 dot_S2000x32_S32x8_S2000x8_1_0_0_1_n_n 32 rfl rfl).symm k) = ix2 p k := funext fun a => Fin.ext (by
    match a with
    | ⟨0, _⟩ => exact lhs1_0 _ _
    | ⟨1, _⟩ => exact (lhs1_1 _ _).trans hk)
  have er : dot_S2000x32_S32x8_S2000x8_1_0_0_1_n_n.rhsIdx (ix2 p q) ((contrEquiv1 dot_S2000x32_S32x8_S2000x8_1_0_0_1_n_n 32 rfl rfl).symm k) = ix2 k q := funext fun a => Fin.ext (by
    match a with
    | ⟨0, _⟩ => exact (rhs1_0 _ _).trans hk
    | ⟨1, _⟩ => exact rhs1_1 _ _)
  rw [el, er]

/-- One step's stored value at entry `(p, q)` of its block: row `p` of the hidden block against column `q` of the
    weights, times the degree factor of row `p` (the narrowing of the operands changes nothing over the extended reals). -/
theorem pay1_apply (b : Vec Ideal S1x32 .f32) (d : Vec Ideal S2000x1 .f32) (agg own : Vec Ideal S2000x32 .f32)
    (W : Vec Ideal S32x8 .f32) (d' : Vec Ideal S2000x1 .f32) (p : Fin 2000) (q : Fin 8) :
    k1_pay1 (F := Ideal) b d agg own W d' (ix2 p q)
      = (∑ k : Fin 32, max (d (ix2 p (0 : Fin 1)) * (agg (ix2 p k) + own (ix2 p k)) + b (ix2 (0 : Fin 1) k)) 0
            * W (ix2 k q)) * d' (ix2 p (0 : Fin 1)) := by
  unfold k1_pay1
  simp only [shapeCast_self]
  rw [mulf_apply, broadcastTo_a1_ab_apply, matmul1_apply]
  refine congrArg (· * d' (ix2 p (0 : Fin 1))) (Finset.sum_congr rfl fun k _ => ?_)
  show max (broadcastTo S2000x32 d broadcasts_S2000x1_S2000x32 (ix2 p k) * (agg (ix2 p k) + own (ix2 p k))
      + broadcastTo S2000x32 b broadcasts_S1x32_S2000x32 (ix2 p k)) (Ideal.ofBits .f32 0x00000000#32) * W (ix2 k q) = _
  rw [broadcastTo_a1_ab_apply, broadcastTo_1b_ab_apply, Ideal.ofBits_zero_f32]

/-- Where each window's block sits at step `t`: the four row-blocked windows at block row `t`, the bias row and the
    weights at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What step `t` writes back is block `t` of the scaled product of the hidden array with the weights. -/
theorem flushed1 (c : Dev nD) (t : Fin cfg1.N) :
    (dat1 (F := Ideal) V c).flushed 5 t = ((cfg1.win 5).blk t).view.read (Elt Ideal)
      (Cert.Spec.lin 100000 32 8 (Cert.Spec.post 100000 32 (V c main_v26) (V c main_v16) (V c main_v13) (V c main_v14))
        (V c main_arg3) (V c main_v13)) := by
  show (cfg1.win 5).cut (grid1.coords t) ((dat1 V c).after 5 t) = _
  rw [after1_5]
  unfold out1_5
  rw [View.canon_unit_zero hz]
  simp only [View.ld_unit_zero (S := S1x32) hz, View.ld_unit_zero (S := S2000x1) hz, View.ld_unit_zero (S := S2000x32) hz,
    View.ld_unit_zero (S := S32x8) hz]
  obtain ⟨e00, e01, e10, e11, e20, e21, e30, e31, e40, e41, e50, e51⟩ := idx1 t
  funext j
  obtain ⟨p, q, rfl⟩ : ∃ (p : Fin 2000) (q : Fin 8), j = ix2 p q := ⟨j 0, j 1, eq_ix2 j⟩
  refine (pay1_apply (iblk1 V c 3 t) (iblk1 V c 2 t) (iblk1 V c 0 t) (iblk1 V c 1 t) (iblk1 V c 4 t) (iblk1 V c 2 t) p q).trans ?_
  have ht : t.val < 50 := lt_of_lt_of_eq t.isLt N_1
  have hr : 2000 * t.val + p.val < 100000 := by have := p.isLt; omega
  have r0 : ∀ k : Fin 32, iblk1 V c 0 t (ix2 p k) = V c main_v26 (ix2 (⟨2000 * t.val + p.val, hr⟩ : Fin 100000) k) := fun k => by
    show V c main_v26 (((cfg1.win 0).blk t).view.emb (ix2 p k)) = _
    refine congrArg (V c main_v26) (funext fun a => Fin.ext ?_)
    match a with
    | ⟨0, _⟩ => show win1_0.index t (0 : Fin 2) * 2000 + 1 * p.val = 2000 * t.val + p.val; omega
    | ⟨1, _⟩ => show win1_0.index t (1 : Fin 2) * 32 + 1 * k.val = k.val; omega
  have r1 : ∀ k : Fin 32, iblk1 V c 1 t (ix2 p k) = V c main_v16 (ix2 (⟨2000 * t.val + p.val, hr⟩ : Fin 100000) k) := fun k => by
    show V c main_v16 (((cfg1.win 1).blk t).view.emb (ix2 p k)) = _
    refine congrArg (V c main_v16) (funext fun a => Fin.ext ?_)
    match a with
    | ⟨0, _⟩ => show win1_1.index t (0 : Fin 2) * 2000 + 1 * p.val = 2000 * t.val + p.val; omega
    | ⟨1, _⟩ => show win1_1.index t (1 : Fin 2) * 32 + 1 * k.val = k.val; omega
  have r2 : iblk1 V c 2 t (ix2 p (0 : Fin 1)) = V c main_v13 (ix2 (⟨2000 * t.val + p.val, hr⟩ : Fin 100000) (0 : Fin 1)) := by
    show V c main_v13 (((cfg1.win 2).blk t).view.emb (ix2 p (0 : Fin 1))) = _
    refine congrArg (V c main_v13) (funext fun a => Fin.ext ?_)
    match a with
    | ⟨0, _⟩ => show win1_2.index t (0 : Fin 2) * 2000 + 1 * p.val = 2000 * t.val + p.val; omega
    | ⟨1, _⟩ => show win1_2.index t (1 : Fin 2) * 1 + 1 * 0 = 0; omega
  have r3 : ∀ k : Fin 32, iblk1 V c 3 t (ix2 (0 : Fin 1) k) = V c main_v14 (ix2 (0 : Fin 1) k) := fun k => by
    show V c main_v14 (((cfg1.win 3).blk t).view.emb (ix2 (0 : Fin 1) k)) = _
    refine congrArg (V c main_v14) (funext fun a => Fin.ext ?_)
    match a with
    | ⟨0, _⟩ => show win1_3.index t (0 : Fin 2) * 1 + 1 * 0 = 0; omega
    | ⟨1, _⟩ => show win1_3.index t (1 : Fin 2) * 32 + 1 * k.val = k.val; omega
  have r4 : ∀ k : Fin 32, iblk1 V c 4 t (ix2 k q) = V c main_arg3 (ix2 k q) := fun k => by
    show V c main_arg3 (((cfg1.win 4).blk t).view.emb (ix2 k q)) = _
    refine congrArg (V c main_arg3) (funext fun a => Fin.ext ?_)
    match a with
    | ⟨0, _⟩ => show win1_4.index t (0 : Fin 2) * 32 + 1 * k.val = k.val; omega
    | ⟨1, _⟩ => show win1_4.index t (1 : Fin 2) * 8 + 1 * q.val = q.val; omega
  have r5 : ((cfg1.win 5).blk t).view.emb (ix2 p q) = ix2 (⟨2000 * t.val + p.val, hr⟩ : Fin 100000) q := by
    refine funext fun a => Fin.ext ?_
    match a with
    | ⟨0, _⟩ => show win1_5.index t (0 : Fin 2) * 2000 + 1 * p.val = 2000 * t.val + p.val; omega
    | ⟨1, _⟩ => show win1_5.index t (1 : Fin 2) * 8 + 1 * q.val = q.val; omega
  rw [r2, View.read_apply, r5, Finset.sum_congr rfl fun k _ => by rw [r0 k, r1 k, r3 k, r4 k]]
  rfl

/-- Every row lies in one step's block, so after the last step the region's result array is the scaled product of the
    hidden array — the epilogue of the operand arrays as the region found them — with the weights. -/
theorem final1 (c : Dev nD) :
    (dat1 (F := Ideal) V c).arrAt 5 cfg1.N
      = Cert.Spec.lin 100000 32 8 (Cert.Spec.post 100000 32 (V c main_v26) (V c main_v16) (V c main_v13) (V c main_v14))
          (V c main_arg3) (V c main_v13) :=
  (dat1 (F := Ideal) V c).arrAt_eq_of_cover 5 _ (fun t _ => flushed1 V c t) fun i => by
    have hi0 : (i 0).val < 100000 := (i 0).isLt
    have hi1 : (i 1).val < 8 := (i 1).isLt
    obtain ⟨hb, hlo, hhi⟩ := row_block (i 0).val hi0
    let t : Fin cfg1.N := ⟨(i 0).val / 2000, lt_of_lt_of_eq hb N_1.symm⟩
    obtain ⟨-, -, -, -, -, -, -, -, -, -, e50, e51⟩ := idx1 t
    refine ⟨t, flush1_5 t, ?_⟩
    show i ∈ ((View.whole main_v27).slice (win1_5.rect t)).set
    rw [View.set_slice_whole, Rect.mem_set_unit]
    intro a
    match a with
    | ⟨0, _⟩ =>
      show win1_5.index t (0 : Fin 2) * 2000 ≤ (i 0).val ∧ (i 0).val < win1_5.index t (0 : Fin 2) * 2000 + 2000
      rw [e50]; exact ⟨hlo, hhi⟩
    | ⟨1, _⟩ =>
      show win1_5.index t (1 : Fin 2) * 8 ≤ (i 1).val ∧ (i 1).val < win1_5.index t (1 : Fin 2) * 8 + 8
      rw [e51]; omega

end Cert.KernelIdeal.Regions

end
-- ==== Proof.Region2.lean ====
/-
  The third node-level region: layer two's epilogue, entry by entry.

  Each of the region's 50 steps takes rows `2000·t … 2000·t + 1999` of the aggregated neighbours, of the node's own
  scaled rows and of the degree factor, and the whole bias row, and leaves in the same rows of its result
  `max (d[i] · (agg[i, c] + own[i, c]) + b[c]) 0`. The blocks tile the 100000 rows, so after the last step the result is
  that function of the four operand arrays everywhere.
-/
import proofs.«138896_j86277303042435_2_alg».proof.Proof.Gen.KernelIdeal.Frame
import proofs.«138896_j86277303042435_2_alg».proof.Proof.Spec
import proofs.«138896_j86277303042435_2_alg».proof.Proof.RegionLemmas
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen Cert.RegionLemmas

/-- One step's stored value at entry `(p, q)` of its block: the degree factor of row `p` times the sum of the two
    blocks' entries, plus the bias of column `q`, cut off below at zero. -/
theorem pay2_apply (b : Vec Ideal S1x8 .f32) (d : Vec Ideal S2000x1 .f32) (agg own : Vec Ideal S2000x8 .f32)
    (p : Fin 2000) (q : Fin 8) :
    k2_pay1 (F := Ideal) b d agg own (ix2 p q)
      = max (d (ix2 p (0 : Fin 1)) * (agg (ix2 p q) + own (ix2 p q)) + b (ix2 (0 : Fin 1) q)) 0 := by
  unfold k2_pay1
  simp only [shapeCast_self]
  show max (broadcastTo S2000x8 d broadcasts_S2000x1_S2000x8 (ix2 p q) * (agg (ix2 p q) + own (ix2 p q))
      + broadcastTo S2000x8 b broadcasts_S1x8_S2000x8 (ix2 p q)) (Ideal.ofBits .f32 0x00000000#32) = _
  rw [broadcastTo_a1_ab_apply, broadcastTo_1b_ab_apply, Ideal.ofBits_zero_f32]

/-- Where each window's block sits at step `t`: the four row-blocked windows at block row `t`, the bias row at its
    one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What step `t` writes back is block `t` of the epilogue of the four operand arrays. -/
theorem flushed2 (c : Dev nD) (t : Fin cfg2.N) :
    (dat2 (F := Ideal) V c).flushed 4 t = ((cfg2.win 4).blk t).view.read (Elt Ideal)
      (Cert.Spec.post 100000 8 (V c main_v37) (V c main_v27) (V c main_v13) (V c main_v15)) := by
  show (cfg2.win 4).cut (grid2.coords t) ((dat2 V c).after 4 t) = _
  rw [after2_4]
  unfold out2_4
  rw [View.canon_unit_zero hz]
  simp only [View.ld_unit_zero (S := S2000x8) hz, View.ld_unit_zero (S := S2000x1) hz, View.ld_unit_zero (S := S1x8) hz]
  obtain ⟨e00, e01, e10, e11, e20, e21, e30, e31, e40, e41⟩ := idx2 t
  funext j
  obtain ⟨p, q, rfl⟩ : ∃ (p : Fin 2000) (q : Fin 8), j = ix2 p q := ⟨j 0, j 1, eq_ix2 j⟩
  refine (pay2_apply (iblk2 V c 3 t) (iblk2 V c 2 t) (iblk2 V c 0 t) (iblk2 V c 1 t) p q).trans ?_
  have ht : t.val < 50 := lt_of_lt_of_eq t.isLt N_2
  have hr : 2000 * t.val + p.val < 100000 := by have := p.isLt; omega
  have r0 : iblk2 V c 0 t (ix2 p q) = V c main_v37 (ix2 (⟨2000 * t.val + p.val, hr⟩ : Fin 100000) q) := by
    show V c main_v37 (((cfg2.win 0).blk t).view.emb (ix2 p q)) = _
    refine congrArg (V c main_v37) (funext fun a => Fin.ext ?_)
    match a with
    | ⟨0, _⟩ => show win2_0.index t (0 : Fin 2) * 2000 + 1 * p.val = 2000 * t.val + p.val; omega
    | ⟨1, _⟩ => show win2_0.index t (1 : Fin 2) * 8 + 1 * q.val = q.val; omega
  have r1 : iblk2 V c 1 t (ix2 p q) = V c main_v27 (ix2 (⟨2000 * t.val + p.val, hr⟩ : Fin 100000) q) := by
    show V c main_v27 (((cfg2.win 1).blk t).view.emb (ix2 p q)) = _
    refine congrArg (V c main_v27) (funext fun a => Fin.ext ?_)
    match a with
    | ⟨0, _⟩ => show win2_1.index t (0 : Fin 2) * 2000 + 1 * p.val = 2000 * t.val + p.val; omega
    | ⟨1, _⟩ => show win2_1.index t (1 : Fin 2) * 8 + 1 * q.val = q.val; omega
  have r2 : iblk2 V c 2 t (ix2 p (0 : Fin 1)) = V c main_v13 (ix2 (⟨2000 * t.val + p.val, hr⟩ : Fin 100000) (0 : Fin 1)) := by
    show V c main_v13 (((cfg2.win 2).blk t).view.emb (ix2 p (0 : Fin 1))) = _
    refine congrArg (V c main_v13) (funext fun a => Fin.ext ?_)
    match a with
    | ⟨0, _⟩ => show win2_2.index t (0 : Fin 2) * 2000 + 1 * p.val = 2000 * t.val + p.val; omega
    | ⟨1, _⟩ => show win2_2.index t (1 : Fin 2) * 1 + 1 * 0 = 0; omega
  have r3 : iblk2 V c 3 t (ix2 (0 : Fin 1) q) = V c main_v15 (ix2 (0 : Fin 1) q) := by
    show V c main_v15 (((cfg2.win 3).blk t).view.emb (ix2 (0 : Fin 1) q)) = _
    refine congrArg (V c main_v15) (funext fun a => Fin.ext ?_)
    match a with
    | ⟨0, _⟩ => show win2_3.index t (0 : Fin 2) * 1 + 1 * 0 = 0; omega
    | ⟨1, _⟩ => show win2_3.index t (1 : Fin 2) * 8 + 1 * q.val = q.val; omega
  have r4 : ((cfg2.win 4).blk t).view.emb (ix2 p q) = ix2 (⟨2000 * t.val + p.val, hr⟩ : Fin 100000) q := by
    refine funext fun a => Fin.ext ?_
    match a with
    | ⟨0, _⟩ => show win2_4.index t (0 : Fin 2) * 2000 + 1 * p.val = 2000 * t.val + p.val; omega
    | ⟨1, _⟩ => show win2_4.index t (1 : Fin 2) * 8 + 1 * q.val = q.val; omega
  rw [r0, r1, r2, r3, View.read_apply, r4]
  rfl

/-- Every row lies in one step's block, so after the last step the region's result array is the epilogue of the four
    operand arrays as the region found them. -/
theorem final2 (c : Dev nD) :
    (dat2 (F := Ideal) V c).arrAt 4 cfg2.N
      = Cert.Spec.post 100000 8 (V c main_v37) (V c main_v27) (V c main_v13) (V c main_v15) :=
  (dat2 (F := Ideal) V c).arrAt_eq_of_cover 4 _ (fun t _ => flushed2 V c t) fun i => by
    have hi0 : (i 0).val < 100000 := (i 0).isLt
    have hi1 : (i 1).val < 8 := (i 1).isLt
    obtain ⟨hb, hlo, hhi⟩ := row_block (i 0).val hi0
    let t : Fin cfg2.N := ⟨(i 0).val / 2000, lt_of_lt_of_eq hb N_2.symm⟩
    obtain ⟨-, -, -, -, -, -, -, -, e40, e41⟩ := idx2 t
    refine ⟨t, flush2_4 t, ?_⟩
    show i ∈ ((View.whole main_v38).slice (win2_4.rect t)).set
    rw [View.set_slice_whole, Rect.mem_set_unit]
    intro a
    match a with
    | ⟨0, _⟩ =>
      show win2_4.index t (0 : Fin 2) * 2000 ≤ (i 0).val ∧ (i 0).val < win2_4.index t (0 : Fin 2) * 2000 + 2000
      rw [e40]; exact ⟨hlo, hhi⟩
    | ⟨1, _⟩ =>
      show win2_4.index t (1 : Fin 2) * 8 ≤ (i 1).val ∧ (i 1).val < win2_4.index t (1 : Fin 2) * 8 + 8
      rw [e41]; omega

end Cert.KernelIdeal.Regions

end
-- ==== Proof.KernelRun.lean ====
/-
  The kernel program's run with its result named. From any launch memory with zero counters, every weakly fair
  execution of the entry function on the TensorCores terminates without fault, and in every final state each core's
  result buffer holds the last boundary's contents `Gen.W7` — the launch memory carried through the four stretches of
  host operations and the three regions' write-backs — while the nine argument buffers hold what they were launched
  with. The final thread state owns every unscoped buffer at `Gen.W7`; the result buffer is one of them, so its contents
  are read off that state beside the arguments'.
-/
import proofs.«138896_j86277303042435_2_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch lemma's implicit arguments are found by unifying its conclusion with this one, which takes unfolding
-- plain definitions in a metavariable's type
set_option backward.isDefEq.respectTransparency.types false in
/-- The run of the entry function: the result buffer ends at the last boundary's contents, every argument as launched. -/
theorem run_value : θ_run (defs (F := Ideal)) (onTc (τ := τ) (main (F := Ideal))) ⟨m, fun _ => 0, ρ⟩ (fun r => ∀ c : Dev nD,
      r.2.mem ((c.tc : Thread nD τ).loc main_v54) = Gen.W7 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Chain

end
-- ==== Proof.KernelStages.lean ====
/-
  The host side of the kernel program, one operation at a time, at the ideal values: each definition is the value one
  operation of the program's entry function writes, as a function of the entry function's arguments; the three node-level
  kernels' results are the whole-array functions `Spec.lin` and `Spec.post` of their operand arrays.

  In order: the two rows of the edge list (`src`, `dst`); the degree (a scatter-add of ones at `dst`, plus one for the
  self loop) and its inverse square root `dinv`; layer one — the scaled product `(x · W1) · dinv`, its rows gathered at
  `src` and scatter-added at `dst`, then the epilogue fused with layer two's scaled product; layer two's gather and
  scatter-add and its epilogue; the mean pool over graphs and the last linear map.
-/
import proofs.«138896_j86277303042435_2_alg».proof.Proof.Gen.KernelIdeal
import proofs.«138896_j86277303042435_2_alg».proof.Proof.Spec

noncomputable section

namespace Cert.KernelIdeal.KS

open Cert.KernelIdeal Cert.KernelIdeal.Gen Idealize.ShloMosaic

/-- Row 0 of the edge list: the message sources. -/
def v1 (x7 : IVec S2x3200000 32) : IVec S3200000 32 :=
  shapeCast S3200000 (extractStridedSlice S1x3200000 ![0, 0] x7 slices_S2x3200000_S1x3200000_0_0) shapeCasts_S1x3200000_S3200000
/-- Row 1 of the edge list: the aggregation targets. -/
def v3 (x7 : IVec S2x3200000 32) : IVec S3200000 32 :=
  shapeCast S3200000 (extractStridedSlice S1x3200000 ![1, 0] x7 slices_S2x3200000_S1x3200000_1_0) shapeCasts_S1x3200000_S3200000
/-- The targets as a column of scatter indices. -/
def v6 (x7 : IVec S2x3200000 32) : IVec S3200000x1 32 := broadcastInDim S3200000x1 ![0] bcast_S3200000_S3200000x1_0 (v3 x7)
/-- The number of edges into each node: ones scatter-added at the targets. -/
def v7 (x7 : IVec S2x3200000 32) : FVec Ideal S100000 .f32 :=
  Host.scatterAdd (F := Ideal) scatter_S100000_S3200000x1_S3200000_n_0_0_1
    (broadcastInDim S100000 ![] bcast_S_S100000 (constant (F := Ideal) S_ .f32 0x00000000#32)) (v6 x7)
    (broadcastInDim S3200000 ![] bcast_S_S3200000 (constant (F := Ideal) S_ .f32 0x3F800000#32))
/-- The degree with the self loop. -/
def v9 (x7 : IVec S2x3200000 32) : FVec Ideal S100000 .f32 :=
  addf (v7 x7) (broadcastInDim S100000 ![] bcast_S_S100000 (constant (F := Ideal) S_ .f32 0x3F800000#32))
/-- The degree clamped below by one. -/
def v11 (x7 : IVec S2x3200000 32) : FVec Ideal S100000 .f32 :=
  maximumf (v9 x7) (broadcastInDim S100000 ![] bcast_S_S100000 (constant (F := Ideal) S_ .f32 0x3F800000#32))
/-- The inverse square root of the degree. -/
def v12 (x7 : IVec S2x3200000 32) : FVec Ideal S100000 .f32 := Host.rsqrt (v11 x7)
/-- The same as a column. -/
def v13 (x7 : IVec S2x3200000 32) : FVec Ideal S100000x1 .f32 := broadcastInDim S100000x1 ![0] bcast_S100000_S100000x1_0 (v12 x7)
/-- Layer one's bias as a row. -/
def v14 (x2 : FVec Ideal S32 .f32) : FVec Ideal S1x32 .f32 := broadcastInDim S1x32 ![1] bcast_S32_S1x32_1 x2
/-- Layer two's bias as a row. -/
def v15 (x4 : FVec Ideal S8 .f32) : FVec Ideal S1x8 .f32 := broadcastInDim S1x8 ![1] bcast_S8_S1x8_1 x4
/-- Layer one's scaled product (the first kernel). -/
def v16 (x0 : FVec Ideal S100000x1081 .f32) (x1 : FVec Ideal S1081x32 .f32) (x7 : IVec S2x3200000 32) : FVec Ideal S100000x32 .f32 := Cert.Spec.lin 100000 1081 32 x0 x1 (v13 x7)
/-- The sources with a negative index wrapped once, as a column of gather indices. -/
def v22 (x7 : IVec S2x3200000 32) : IVec S3200000x1 32 :=
  broadcastInDim S3200000x1 ![0] bcast_S3200000_S3200000x1_0
    (select (cmpi .slt (v1 x7) (broadcastInDim S3200000 ![] bcast_S_S3200000 (constantI S_ 32 0#32)))
      (addi (v1 x7) (broadcastInDim S3200000 ![] bcast_S_S3200000 (constantI S_ 32 100000#32))) (v1 x7))
/-- Layer one's scaled rows gathered at the sources. -/
def v23 (x0 : FVec Ideal S100000x1081 .f32) (x1 : FVec Ideal S1081x32 .f32) (x7 : IVec S2x3200000 32) : FVec Ideal S3200000x32 .f32 :=
  Host.gather gather_S100000x32_S3200000x1_S3200000x32_1_0_n_n_0_1_132 (v16 x0 x1 x7) (v22 x7)
/-- Layer one's aggregation: the gathered rows scatter-added at the targets. -/
def v26 (x0 : FVec Ideal S100000x1081 .f32) (x1 : FVec Ideal S1081x32 .f32) (x7 : IVec S2x3200000 32) : FVec Ideal S100000x32 .f32 :=
  Host.scatterAdd (F := Ideal) scatter_S100000x32_S3200000x1_S3200000x32_1_0_0_1
    (broadcastInDim S100000x32 ![] bcast_S_S100000x32 (constant (F := Ideal) S_ .f32 0x00000000#32)) (v6 x7) (v23 x0 x1 x7)
/-- Layer one's epilogue fused with layer two's scaled product (the second kernel). -/
def v27 (x0 : FVec Ideal S100000x1081 .f32) (x1 : FVec Ideal S1081x32 .f32) (x2 : FVec Ideal S32 .f32) (x3 : FVec Ideal S32x8 .f32) (x7 : IVec S2x3200000 32) : FVec Ideal S100000x8 .f32 :=
  Cert.Spec.lin 100000 32 8 (Cert.Spec.post 100000 32 (v26 x0 x1 x7) (v16 x0 x1 x7) (v13 x7) (v14 x2)) x3 (v13 x7)
/-- Layer two's scaled rows gathered at the sources. -/
def v34 (x0 : FVec Ideal S100000x1081 .f32) (x1 : FVec Ideal S1081x32 .f32) (x2 : FVec Ideal S32 .f32) (x3 : FVec Ideal S32x8 .f32) (x7 : IVec S2x3200000 32) : FVec Ideal S3200000x8 .f32 :=
  Host.gather gather_S100000x8_S3200000x1_S3200000x8_1_0_n_n_0_1_18 (v27 x0 x1 x2 x3 x7) (v22 x7)
/-- Layer two's aggregation. -/
def v37 (x0 : FVec Ideal S100000x1081 .f32) (x1 : FVec Ideal S1081x32 .f32) (x2 : FVec Ideal S32 .f32) (x3 : FVec Ideal S32x8 .f32) (x7 : IVec S2x3200000 32) : FVec Ideal S100000x8 .f32 :=
  Host.scatterAdd (F := Ideal) scatter_S100000x8_S3200000x1_S3200000x8_1_0_0_1
    (broadcastInDim S100000x8 ![] bcast_S_S100000x8 (constant (F := Ideal) S_ .f32 0x00000000#32)) (v6 x7) (v34 x0 x1 x2 x3 x7)
/-- Layer two's epilogue (the third kernel): the node features. -/
def v38 (x0 : FVec Ideal S100000x1081 .f32) (x1 : FVec Ideal S1081x32 .f32) (x2 : FVec Ideal S32 .f32) (x3 : FVec Ideal S32x8 .f32) (x4 : FVec Ideal S8 .f32) (x7 : IVec S2x3200000 32) : FVec Ideal S100000x8 .f32 :=
  Cert.Spec.post 100000 8 (v37 x0 x1 x2 x3 x7) (v27 x0 x1 x2 x3 x7) (v13 x7) (v15 x4)

/-- The mean pool over graphs and the last linear map, as a function of the node features. -/
def tail (x5 : FVec Ideal S8x5 .f32) (x6 : FVec Ideal S5 .f32) (x8 : IVec S100000 32) (h : FVec Ideal S100000x8 .f32) : FVec Ideal S64x5 .f32 :=
  addf
    (Host.dotGeneral (F := Ideal) dot_S64x8_S8x5_S64x5_1_0_0_1_n_n none
      (Host.divf
        (Host.scatterAdd (F := Ideal) scatter_S64x8_S100000x1_S100000x8_1_0_0_1
          (broadcastInDim S64x8 ![] bcast_S_S64x8 (constant (F := Ideal) S_ .f32 0x00000000#32))
          (broadcastInDim S100000x1 ![0] bcast_S100000_S100000x1_0 x8) h)
        (broadcastInDim S64x8 ![0, 1] bcast_S64x1_S64x8_0_1
          (broadcastInDim S64x1 ![0] bcast_S64_S64x1_0
            (maximumf
              (Host.scatterAdd (F := Ideal) scatter_S64_S100000x1_S100000_n_0_0_1
                (broadcastInDim S64 ![] bcast_S_S64 (constant (F := Ideal) S_ .f32 0x00000000#32))
                (broadcastInDim S100000x1 ![0] bcast_S100000_S100000x1_0 x8)
                (broadcastInDim S100000 ![] bcast_S_S100000 (constant (F := Ideal) S_ .f32 0x3F800000#32)))
              (broadcastInDim S64 ![] bcast_S_S64 (constant (F := Ideal) S_ .f32 0x3F800000#32))))))
      x5)
    (broadcastInDim S64x5 ![0, 1] bcast_S1x5_S64x5_0_1 (broadcastInDim S1x5 ![1] bcast_S5_S1x5_1 x6))

/-- The program's result. -/
def result (x0 : FVec Ideal S100000x1081 .f32) (x1 : FVec Ideal S1081x32 .f32) (x2 : FVec Ideal S32 .f32) (x3 : FVec Ideal S32x8 .f32) (x4 : FVec Ideal S8 .f32) (x5 : FVec Ideal S8x5 .f32) (x6 : FVec Ideal S5 .f32) (x7 : IVec S2x3200000 32) (x8 : IVec S100000 32) : FVec Ideal S64x5 .f32 := tail x5 x6 x8 (v38 x0 x1 x2 x3 x4 x7)

end Cert.KernelIdeal.KS

end
-- ==== Proof.KernelChain.lean ====
/-
  The last boundary's contents at the result buffer, read back to a term of the entry function's arguments.

  The boundary contents are a fold from the launch memory: a stretch of host operations rewrites the buffers it writes and
  leaves the rest; a region puts each of its arrays at what its pipeline leaves — an input array as it was entered, the
  output array at the kernel's whole-array function of the input arrays — and leaves every other buffer as entered. The
  fold is walked boundary by boundary, one equation per buffer that a later stage reads: what the buffer holds is the
  stage's definition in `KS` applied to the launch contents of the arguments. The three kernels' whole-array functions
  enter as hypotheses, each stated at an arbitrary entry contents.
-/
import proofs.«138896_j86277303042435_2_alg».proof.Proof.Gen.KernelIdeal.Frame
import proofs.«138896_j86277303042435_2_alg».proof.Proof.KernelStages

set_option maxRecDepth 16384

noncomputable section

namespace Cert.KernelIdeal.Chain

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-! ## The arguments' launch contents, at their literal array types -/

abbrev arg0 : (⟨S100000x1081, .f32⟩ : BufTy).Contents (Elt Ideal) := m ((c.tc : Thread nD τ).loc main_arg0)
abbrev arg1 : (⟨S1081x32, .f32⟩ : BufTy).Contents (Elt Ideal) := m ((c.tc : Thread nD τ).loc main_arg1)
abbrev arg2 : (⟨S32, .f32⟩ : BufTy).Contents (Elt Ideal) := m ((c.tc : Thread nD τ).loc main_arg2)
abbrev arg3 : (⟨S32x8, .f32⟩ : BufTy).Contents (Elt Ideal) := m ((c.tc : Thread nD τ).loc main_arg3)
abbrev arg4 : (⟨S8, .f32⟩ : BufTy).Contents (Elt Ideal) := m ((c.tc : Thread nD τ).loc main_arg4)
abbrev arg5 : (⟨S8x5, .f32⟩ : BufTy).Contents (Elt Ideal) := m ((c.tc : Thread nD τ).loc main_arg5)
abbrev arg6 : (⟨S5, .f32⟩ : BufTy).Contents (Elt Ideal) := m ((c.tc : Thread nD τ).loc main_arg6)
abbrev arg7 : (⟨S2x3200000, .i32⟩ : BufTy).Contents (Elt Ideal) := m ((c.tc : Thread nD τ).loc main_arg7)
abbrev arg8 : (⟨S100000, .i32⟩ : BufTy).Contents (Elt Ideal) := m ((c.tc : Thread nD τ).loc main_arg8)

/-- A buffer that no operation of a stretch writes holds after the stretch what it held before: every operation's
    one written reference differs from the buffer's. -/
local macro "host_keeps" : tactic => `(tactic| (
  refine StableHlo.after_of_forall_not_mem _ _ (List.forall_iff_forall_mem.mp ?_)
  simp only [Gen.hostOps0, Gen.hostOps1, Gen.hostOps2, Gen.hostOps3, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch: the edge list's rows, the degree factor, the bias rows -/

theorem W1_arg0 : Gen.W1 m ρ c (Proc.devRef .tc main_arg0) = (arg0 m c) := by
  refine Eq.trans ?_ (rfl)
  show StableHlo.after Gen.hostOps0 (Gen.W0 m ρ c) (Proc.devRef .tc main_arg0) = Gen.W0 m ρ c (Proc.devRef .tc main_arg0)
  host_keeps
theorem W1_arg1 : Gen.W1 m ρ c (Proc.devRef .tc main_arg1) = (arg1 m c) := by
  refine Eq.trans ?_ (rfl)
  show StableHlo.after Gen.hostOps0 (Gen.W0 m ρ c) (Proc.devRef .tc main_arg1) = Gen.W0 m ρ c (Proc.devRef .tc main_arg1)
  host_keeps
theorem W1_arg3 : Gen.W1 m ρ c (Proc.devRef .tc main_arg3) = (arg3 m c) := by
  refine Eq.trans ?_ (rfl)
  show StableHlo.after Gen.hostOps0 (Gen.W0 m ρ c) (Proc.devRef .tc main_arg3) = Gen.W0 m ρ c (Proc.devRef .tc main_arg3)
  host_keeps

theorem W1_v1 : Gen.W1 m ρ c (Proc.devRef .tc main_v1) = KS.v1 (arg7 m c) := by
  show StableHlo.after Gen.hostOps0 (Gen.W0 m ρ c) (Proc.devRef .tc main_v1) = _
  after_results
  rfl
theorem W1_v3 : Gen.W1 m ρ c (Proc.devRef .tc main_v3) = KS.v3 (arg7 m c) := by
  show StableHlo.after Gen.hostOps0 (Gen.W0 m ρ c) (Proc.devRef .tc main_v3) = _
  after_results
  rfl
theorem W1_v13 : Gen.W1 m ρ c (Proc.devRef .tc main_v13) = KS.v13 (arg7 m c) := by
  show StableHlo.after Gen.hostOps0 (Gen.W0 m ρ c) (Proc.devRef .tc main_v13) = _
  after_results
  rfl
theorem W1_v14 : Gen.W1 m ρ c (Proc.devRef .tc main_v14) = KS.v14 (arg2 m c) := by
  show StableHlo.after Gen.hostOps0 (Gen.W0 m ρ c) (Proc.devRef .tc main_v14) = _
  after_results
  rfl
theorem W1_v15 : Gen.W1 m ρ c (Proc.devRef .tc main_v15) = KS.v15 (arg4 m c) := by
  show StableHlo.after Gen.hostOps0 (Gen.W0 m ρ c) (Proc.devRef .tc main_v15) = _
  after_results
  rfl

/-! ## Region 0: layer one's scaled product

The region's output array is the kernel's function of its three input arrays as the region finds them; its input arrays,
and every buffer that is none of its arrays, pass through. -/

variable (h0 : ∀ (V : (c : Dev nD) → (b : Ref sig .tc) → Buf (Elt Ideal) ((c : Thread nD τ).loc b)) (c : Dev nD), (Gen.dat0 (F := Ideal) V c).arrAt 3 cfg0.N = Cert.Spec.lin 100000 1081 32 (V c main_arg0) (V c main_arg1) (V c main_v13))
include h0 in
theorem W2_v16 : Gen.W2 m ρ c (Proc.devRef .tc main_v16) = KS.v16 (arg0 m c) (arg1 m c) (arg7 m c) := by
  refine (Gen.W2_arr m ρ c 3).trans ((h0 (Gen.V1 m ρ) c).trans ?_)
  show Cert.Spec.lin 100000 1081 32 (Gen.W1 m ρ c (Proc.devRef .tc main_arg0)) (Gen.W1 m ρ c (Proc.devRef .tc main_arg1)) (Gen.W1 m ρ c (Proc.devRef .tc main_v13)) = _
  rw [W1_arg0, W1_arg1, W1_v13]
  rfl
theorem W2_v13 : Gen.W2 m ρ c (Proc.devRef .tc main_v13) = KS.v13 (arg7 m c) :=
  ((Gen.W2_arr m ρ c 2).trans (((Gen.dat0 (Gen.V1 m ρ) c).arrAt_in 2 rfl _).trans (Gen.A_eq0 (Gen.V1 m ρ) c 2))).trans (W1_v13 m ρ c)
theorem W2_v1 : Gen.W2 m ρ c (Proc.devRef .tc main_v1) = KS.v1 (arg7 m c) :=
  (Gen.W2_of_ne m ρ c main_v1 (by decide)).trans (W1_v1 m ρ c)
theorem W2_v3 : Gen.W2 m ρ c (Proc.devRef .tc main_v3) = KS.v3 (arg7 m c) :=
  (Gen.W2_of_ne m ρ c main_v3 (by decide)).trans (W1_v3 m ρ c)
theorem W2_v14 : Gen.W2 m ρ c (Proc.devRef .tc main_v14) = KS.v14 (arg2 m c) :=
  (Gen.W2_of_ne m ρ c main_v14 (by decide)).trans (W1_v14 m ρ c)
theorem W2_v15 : Gen.W2 m ρ c (Proc.devRef .tc main_v15) = KS.v15 (arg4 m c) :=
  (Gen.W2_of_ne m ρ c main_v15 (by decide)).trans (W1_v15 m ρ c)
theorem W2_arg3 : Gen.W2 m ρ c (Proc.devRef .tc main_arg3) = (arg3 m c) :=
  (Gen.W2_of_ne m ρ c main_arg3 (by decide)).trans (W1_arg3 m ρ c)

/-! ## After the second stretch: layer one's rows gathered at the sources and scatter-added at the targets -/

include h0 in
theorem W3_v26 : Gen.W3 m ρ c (Proc.devRef .tc main_v26) = KS.v26 (arg0 m c) (arg1 m c) (arg7 m c) := by
  show StableHlo.after Gen.hostOps1 (Gen.W2 m ρ c) (Proc.devRef .tc main_v26) = _
  after_results
  rw [W2_v3, W2_v16 m ρ c h0, W2_v1]
  rfl
include h0 in
theorem W3_v16 : Gen.W3 m ρ c (Proc.devRef .tc main_v16) = KS.v16 (arg0 m c) (arg1 m c) (arg7 m c) := by
  refine Eq.trans ?_ (W2_v16 m ρ c h0)
  show StableHlo.after Gen.hostOps1 (Gen.W2 m ρ c) (Proc.devRef .tc main_v16) = Gen.W2 m ρ c (Proc.devRef .tc main_v16)
  host_keeps
theorem W3_v13 : Gen.W3 m ρ c (Proc.devRef .tc main_v13) = KS.v13 (arg7 m c) := by
  refine Eq.trans ?_ (W2_v13 m ρ c)
  show StableHlo.after Gen.hostOps1 (Gen.W2 m ρ c) (Proc.devRef .tc main_v13) = Gen.W2 m ρ c (Proc.devRef .tc main_v13)
  host_keeps
theorem W3_v14 : Gen.W3 m ρ c (Proc.devRef .tc main_v14) = KS.v14 (arg2 m c) := by
  refine Eq.trans ?_ (W2_v14 m ρ c)
  show StableHlo.after Gen.hostOps1 (Gen.W2 m ρ c) (Proc.devRef .tc main_v14) = Gen.W2 m ρ c (Proc.devRef .tc main_v14)
  host_keeps
theorem W3_v15 : Gen.W3 m ρ c (Proc.devRef .tc main_v15) = KS.v15 (arg4 m c) := by
  refine Eq.trans ?_ (W2_v15 m ρ c)
  show StableHlo.after Gen.hostOps1 (Gen.W2 m ρ c) (Proc.devRef .tc main_v15) = Gen.W2 m ρ c (Proc.devRef .tc main_v15)
  host_keeps
theorem W3_v1 : Gen.W3 m ρ c (Proc.devRef .tc main_v1) = KS.v1 (arg7 m c) := by
  refine Eq.trans ?_ (W2_v1 m ρ c)
  show StableHlo.after Gen.hostOps1 (Gen.W2 m ρ c) (Proc.devRef .tc main_v1) = Gen.W2 m ρ c (Proc.devRef .tc main_v1)
  host_keeps
theorem W3_v3 : Gen.W3 m ρ c (Proc.devRef .tc main_v3) = KS.v3 (arg7 m c) := by
  refine Eq.trans ?_ (W2_v3 m ρ c)
  show StableHlo.after Gen.hostOps1 (Gen.W2 m ρ c) (Proc.devRef .tc main_v3) = Gen.W2 m ρ c (Proc.devRef .tc main_v3)
  host_keeps
theorem W3_arg3 : Gen.W3 m ρ c (Proc.devRef .tc main_arg3) = (arg3 m c) := by
  refine Eq.trans ?_ (W2_arg3 m ρ c)
  show StableHlo.after Gen.hostOps1 (Gen.W2 m ρ c) (Proc.devRef .tc main_arg3) = Gen.W2 m ρ c (Proc.devRef .tc main_arg3)
  host_keeps

/-! ## Region 1: layer one's epilogue fused with layer two's scaled product -/

variable (h1 : ∀ (V : (c : Dev nD) → (b : Ref sig .tc) → Buf (Elt Ideal) ((c : Thread nD τ).loc b)) (c : Dev nD), (Gen.dat1 (F := Ideal) V c).arrAt 5 cfg1.N = Cert.Spec.lin 100000 32 8 (Cert.Spec.post 100000 32 (V c main_v26) (V c main_v16) (V c main_v13) (V c main_v14)) (V c main_arg3) (V c main_v13))
include h0 h1 in
theorem W4_v27 : Gen.W4 m ρ c (Proc.devRef .tc main_v27) = KS.v27 (arg0 m c) (arg1 m c) (arg2 m c) (arg3 m c) (arg7 m c) := by
  refine (Gen.W4_arr m ρ c 5).trans ((h1 (Gen.V3 m ρ) c).trans ?_)
  show Cert.Spec.lin 100000 32 8 (Cert.Spec.post 100000 32 (Gen.W3 m ρ c (Proc.devRef .tc main_v26)) (Gen.W3 m ρ c (Proc.devRef .tc main_v16)) (Gen.W3 m ρ c (Proc.devRef .tc main_v13))
    (Gen.W3 m ρ c (Proc.devRef .tc main_v14))) (Gen.W3 m ρ c (Proc.devRef .tc main_arg3)) (Gen.W3 m ρ c (Proc.devRef .tc main_v13)) = _
  rw [W3_v26 m ρ c h0, W3_v16 m ρ c h0, W3_v13, W3_v14, W3_arg3]
  rfl
theorem W4_v13 : Gen.W4 m ρ c (Proc.devRef .tc main_v13) = KS.v13 (arg7 m c) :=
  ((Gen.W4_arr m ρ c 2).trans (((Gen.dat1 (Gen.V3 m ρ) c).arrAt_in 2 rfl _).trans (Gen.A_eq1 (Gen.V3 m ρ) c 2))).trans (W3_v13 m ρ c)
theorem W4_v1 : Gen.W4 m ρ c (Proc.devRef .tc main_v1) = KS.v1 (arg7 m c) :=
  (Gen.W4_of_ne m ρ c main_v1 (by decide)).trans (W3_v1 m ρ c)
theorem W4_v3 : Gen.W4 m ρ c (Proc.devRef .tc main_v3) = KS.v3 (arg7 m c) :=
  (Gen.W4_of_ne m ρ c main_v3 (by decide)).trans (W3_v3 m ρ c)
theorem W4_v15 : Gen.W4 m ρ c (Proc.devRef .tc main_v15) = KS.v15 (arg4 m c) :=
  (Gen.W4_of_ne m ρ c main_v15 (by decide)).trans (W3_v15 m ρ c)

/-! ## After the third stretch: layer two's rows gathered at the sources and scatter-added at the targets -/

include h0 h1 in
theorem W5_v37 : Gen.W5 m ρ c (Proc.devRef .tc main_v37) = KS.v37 (arg0 m c) (arg1 m c) (arg2 m c) (arg3 m c) (arg7 m c) := by
  show StableHlo.after Gen.hostOps2 (Gen.W4 m ρ c) (Proc.devRef .tc main_v37) = _
  after_results
  rw [W4_v3, W4_v27 m ρ c h0 h1, W4_v1]
  rfl
include h0 h1 in
theorem W5_v27 : Gen.W5 m ρ c (Proc.devRef .tc main_v27) = KS.v27 (arg0 m c) (arg1 m c) (arg2 m c) (arg3 m c) (arg7 m c) := by
  refine Eq.trans ?_ (W4_v27 m ρ c h0 h1)
  show StableHlo.after Gen.hostOps2 (Gen.W4 m ρ c) (Proc.devRef .tc main_v27) = Gen.W4 m ρ c (Proc.devRef .tc main_v27)
  host_keeps
theorem W5_v13 : Gen.W5 m ρ c (Proc.devRef .tc main_v13) = KS.v13 (arg7 m c) := by
  refine Eq.trans ?_ (W4_v13 m ρ c)
  show StableHlo.after Gen.hostOps2 (Gen.W4 m ρ c) (Proc.devRef .tc main_v13) = Gen.W4 m ρ c (Proc.devRef .tc main_v13)
  host_keeps
theorem W5_v15 : Gen.W5 m ρ c (Proc.devRef .tc main_v15) = KS.v15 (arg4 m c) := by
  refine Eq.trans ?_ (W4_v15 m ρ c)
  show StableHlo.after Gen.hostOps2 (Gen.W4 m ρ c) (Proc.devRef .tc main_v15) = Gen.W4 m ρ c (Proc.devRef .tc main_v15)
  host_keeps

/-! ## Region 2: layer two's epilogue -/

variable (h2 : ∀ (V : (c : Dev nD) → (b : Ref sig .tc) → Buf (Elt Ideal) ((c : Thread nD τ).loc b)) (c : Dev nD), (Gen.dat2 (F := Ideal) V c).arrAt 4 cfg2.N = Cert.Spec.post 100000 8 (V c main_v37) (V c main_v27) (V c main_v13) (V c main_v15))
include h0 h1 h2 in
theorem W6_v38 : Gen.W6 m ρ c (Proc.devRef .tc main_v38) = KS.v38 (arg0 m c) (arg1 m c) (arg2 m c) (arg3 m c) (arg4 m c) (arg7 m c) := by
  refine (Gen.W6_arr m ρ c 4).trans ((h2 (Gen.V5 m ρ) c).trans ?_)
  show Cert.Spec.post 100000 8 (Gen.W5 m ρ c (Proc.devRef .tc main_v37)) (Gen.W5 m ρ c (Proc.devRef .tc main_v27)) (Gen.W5 m ρ c (Proc.devRef .tc main_v13)) (Gen.W5 m ρ c (Proc.devRef .tc main_v15)) = _
  rw [W5_v37 m ρ c h0 h1, W5_v27 m ρ c h0 h1, W5_v13, W5_v15]
  rfl

/-- An argument's buffer holds at the last region's exit what it holds at the return (the last stretch writes no
    argument), which is what it was launched with. -/
theorem W6_arg5 : Gen.W6 m ρ c (Proc.devRef .tc main_arg5) = (arg5 m c) := by
  refine Eq.trans (Eq.symm ?_) (Gen.W7_main_arg5 m ρ c)
  show StableHlo.after Gen.hostOps3 (Gen.W6 m ρ c) (Proc.devRef .tc main_arg5) = Gen.W6 m ρ c (Proc.devRef .tc main_arg5)
  host_keeps
theorem W6_arg6 : Gen.W6 m ρ c (Proc.devRef .tc main_arg6) = (arg6 m c) := by
  refine Eq.trans (Eq.symm ?_) (Gen.W7_main_arg6 m ρ c)
  show StableHlo.after Gen.hostOps3 (Gen.W6 m ρ c) (Proc.devRef .tc main_arg6) = Gen.W6 m ρ c (Proc.devRef .tc main_arg6)
  host_keeps
theorem W6_arg8 : Gen.W6 m ρ c (Proc.devRef .tc main_arg8) = (arg8 m c) := by
  refine Eq.trans (Eq.symm ?_) (Gen.W7_main_arg8 m ρ c)
  show StableHlo.after Gen.hostOps3 (Gen.W6 m ρ c) (Proc.devRef .tc main_arg8) = Gen.W6 m ρ c (Proc.devRef .tc main_arg8)
  host_keeps

/-! ## After the last stretch: the mean pool over graphs and the last linear map -/

include h0 h1 h2 in
/-- The result buffer at the return is the program's result term at the arguments' launch contents. -/
theorem W7_result : Gen.W7 (F := Ideal) m ρ c (Proc.devRef .tc main_v54)
    = KS.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after Gen.hostOps3 (Gen.W6 m ρ c) (Proc.devRef .tc main_v54) = KS.result (arg0 m c) (arg1 m c) (arg2 m c) (arg3 m c) (arg4 m c) (arg5 m c) (arg6 m c) (arg7 m c) (arg8 m c)
  after_results_simp
  rw [W6_v38 m ρ c h0 h1 h2, W6_arg8, W6_arg5, W6_arg6]
  rfl

end Cert.KernelIdeal.Chain

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.LibVecGatherScatter.lean ====
/-
  Gather and scatter-add of a vector, read at an index.

  What `x[idx]` of a vector `x : [N]` at an integer vector `idx : [E]` (carried as `[E, 1]`) lowers to is a
  `stablehlo.gather` of single elements: result element `e` is `x` at `idx[e]` (read signed, clamped into
  `[0, N − 1]`). What a segment sum of `upd : [E]` into `[N]` lowers to is a `stablehlo.scatter` with an `add` body:
  operand element `n` receives every `upd e` whose index `idx[e]`, read signed and not clamped, is exactly `n`.
-/
import Idealize.ShloMosaic.Lib.ValueIdx
import Idealize.ShloMosaic.PureOps.Ideal

noncomputable section

open scoped BigOperators

namespace Cert.VecOps

open Idealize.ShloMosaic Idealize.ShloMosaic.ValueIdx

/-! ## The element gather -/

/-- The dimension numbers of an element gather: operand `[N]`, start indices `[E, 1]`, result `[E]`; no offset axis,
    the operand's one axis collapsed, the start index naming it, slices of one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element the gather reads for edge `e`: the start index read signed and clamped into `[0, N − 1]`. -/
def gatherElt {N E w : Nat} (hN : 0 < N) (idx : IVec ⟨2, ![E, 1]⟩ w) (e : Fin E) : Fin N :=
  ⟨min (idx (ix2 e 0)).toInt.toNat (N - 1), by omega⟩

/-- The element gather at `e` is the operand at `gatherElt e` (the clamped start index). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherElt hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## The element scatter-add -/

/-- The dimension numbers of an element scatter: operand `[N]`, scatter indices `[E, 1]`, updates `[E]`; no update
    window axis, the operand's one axis inserted, the scatter index naming it. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- The operand axes the update windows go to are the ones that are not inserted. -/
theorem vecScatter_mem_sKept (a : Fin 1) :
    a ∈ (vecScatterDims N E wf).sKept ↔ a ∉ (vecScatterDims N E wf).insertedWindowDims := by
  simp [ScatterDims.sKept, Shape.kept, List.mem_filter, List.mem_finRange]

/-- The window of update `e` starts at the scatter index `idx[e]`, read signed. -/
theorem vecScatter_start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's axis is an inserted one: the window coordinate there is `0`. -/
theorem vecScatter_window0 (e : Fin E) : (vecScatterDims N E wf).window (ix1 e) 0 = 0 := by
  unfold ScatterDims.window
  rw [dif_neg (fun h => ((vecScatter_mem_sKept wf 0).mp h) (List.mem_singleton.mpr rfl))]

end Scatter

/-- Update `e` lands on operand element `n` exactly when the scatter index `idx[e]`, read signed, is `n`. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e 0)).toInt = (n.val : Int) := by
  have hn := n.isLt
  unfold ScatterDims.resultIdx?
  constructor
  · intro h
    by_cases hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a
    · rw [dif_pos hall] at h
      have heq := Option.some.inj h
      have h0 : ((vecScatterDims N E wf).start (ix1 e) idx 0 + (vecScatterDims N E wf).window (ix1 e) 0).toNat
          = n.val := congrArg (fun f => (f 0).val) heq
      have b0 := (hall 0).1
      rw [vecScatter_start0, vecScatter_window0] at h0 b0
      omega
    · rw [dif_neg hall] at h
      exact absurd h (by simp)
  · intro hi
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [vecScatter_start0, vecScatter_window0, hi]
        omega
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [vecScatter_start0, vecScatter_window0, hi]
      omega

/-- THE ELEMENT SCATTER-ADD AT `n`: the operand element plus the sum of the update elements `upd e` over the edges
    `e` whose scatter index `idx[e]`, read signed and not clamped, is `n`. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n)
        + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    obtain ⟨a, rfl⟩ : ∃ (a : Fin E), j = ix1 a := ⟨j 0, eq_ix1 j⟩
    exact Finset.mem_filter.mpr ⟨Finset.mem_univ _, (vecScatter_resultIdx_iff wf idx a n).mp (Finset.mem_filter.mp hj).2⟩
  · intro e he
    exact Finset.mem_filter.mpr ⟨Finset.mem_univ _, (vecScatter_resultIdx_iff wf idx e n).mpr (Finset.mem_filter.mp he).2⟩
  · intro j _
    exact (eq_ix1 j).symm
  · intro e _
    rfl
  · intro j _
    exact congrArg upd (eq_ix1 j)

end Cert.VecOps

end
-- ==== Proof.EdgeIndex.lean ====
/-
  The edge list read at an index, in both programs.

  The edge list is a `[2, E]` integer array: row 0 the message sources, row 1 the aggregation targets. The factored
  program scatters at the targets as they are and gathers at the sources after a negative index is wrapped once
  (`wrap`). The edge-weighted program first appends one self loop per node (`arange N`) to both rows. This module reads
  each index column the two programs build at an edge, and derives the relations between them that the layer identity
  asks for: on a real edge the columns agree; the self loop of node `n` has source and target `n`.
-/
import proofs.«138896_j86277303042435_2_alg».proof.Proof.KernelStages
import proofs.«138896_j86277303042435_2_alg».proof.Proof.Gen.ReferenceIdeal.Read
import proofs.«138896_j86277303042435_2_alg».proof.Proof.LibRowGatherScatter
import proofs.«138896_j86277303042435_2_alg».proof.Proof.LibVecGatherScatter

noncomputable section

namespace Cert.EdgeIndex

open Idealize.ShloMosaic Idealize.ShloMosaic.ValueIdx Cert.RowOps Cert.VecOps

/-! ## Wrapping a negative index once -/

/-- An index below zero has the extent `100000` added; any other index is kept. -/
def wrap (b : BitVec 32) : BitVec 32 := Scalar.select (IntOp.cmpi .slt b 0#32) (IntOp.addi b 100000#32) b

/-- A nonnegative index is kept. -/
theorem wrap_of_nonneg {b : BitVec 32} (h : 0 ≤ b.toInt) : wrap b = b := by
  unfold wrap Scalar.select IntOp.cmpi
  have h2 : b.slt 0#32 = false := by
    simp only [BitVec.slt, BitVec.toInt_zero]
    exact decide_eq_false (by omega)
  simp [h2]

/-- A node number, as a 32-bit word, reads back as itself. -/
theorem toInt_ofNat_small {n : Nat} (h : n < 100000) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  rw [if_pos (by omega)]

/-- An index that reads as the node `i`, wrapped and clamped into the node range, is `i`. -/
theorem clamp_wrap_of_eq {b : BitVec 32} {i : Fin 100000} (h : b.toInt = (i.val : Int)) :
    min (wrap b).toInt.toNat (100000 - 1) = i.val := by
  have hi := i.isLt
  rw [wrap_of_nonneg (by omega), h]
  omega

/-- A scalar integer constant broadcast to any shape is that constant everywhere. -/
theorem bcastI_scalar {t : Shape} (h : (⟨0, ![]⟩ : Shape).BroadcastsInDim t ![]) (c : BitVec 32) (j : t.Idx) :
    broadcastInDim t ![] h (constantI ⟨0, ![]⟩ 32 c) j = c :=
  broadcastInDim_apply _ h _ j (fun a => a.elim0) (fun a => a.elim0)

/-! ## The factored program's columns -/

section Kernel
variable (x7 : IVec (⟨2, ![2, 3200000]⟩ : Shape) 32)

/-- The sources: row 0 of the edge list. -/
theorem k_src (e : Fin 3200000) : Cert.KernelIdeal.KS.v1 x7 (ix1 e) = x7 (ix2 0 e) := by
  unfold Cert.KernelIdeal.KS.v1
  refine (shapeCast_apply _ _ (ix1 e) (ix2 (0 : Fin 1) e) ?_).trans
    (extractStridedSlice_apply ![0, 0] x7 _ (ix2 (0 : Fin 1) e) (ix2 (0 : Fin 2) e) fun a => ?_)
  · rewrite [Shape.rowMajor_val_two, Shape.rowMajor_val_one]
    show 0 * 3200000 + e.val = e.val
    omega
  · match a with
    | ⟨0, _⟩ => rfl
    | ⟨1, _⟩ => show e.val = 0 + e.val; omega

/-- The targets: row 1 of the edge list. -/
theorem k_dst (e : Fin 3200000) : Cert.KernelIdeal.KS.v3 x7 (ix1 e) = x7 (ix2 1 e) := by
  unfold Cert.KernelIdeal.KS.v3
  refine (shapeCast_apply _ _ (ix1 e) (ix2 (0 : Fin 1) e) ?_).trans
    (extractStridedSlice_apply ![1, 0] x7 _ (ix2 (0 : Fin 1) e) (ix2 (1 : Fin 2) e) fun a => ?_)
  · rewrite [Shape.rowMajor_val_two, Shape.rowMajor_val_one]
    show 0 * 3200000 + e.val = e.val
    omega
  · match a with
    | ⟨0, _⟩ => rfl
    | ⟨1, _⟩ => show e.val = 0 + e.val; omega

/-- The scatter column holds the targets. -/
theorem k_scatter (e : Fin 3200000) : Cert.KernelIdeal.KS.v6 x7 (ix2 e 0) = x7 (ix2 1 e) := by
  unfold Cert.KernelIdeal.KS.v6
  refine (broadcastInDim_apply _ _ _ (ix2 e 0) (ix1 e) fun a => ?_).trans (k_dst x7 e)
  match a with
  | ⟨0, _⟩ => show e.val = if (3200000 : Nat) = 1 then 0 else e.val; rw [if_neg (by decide)]

/-- The gather column holds the wrapped sources. -/
theorem k_gather (e : Fin 3200000) : Cert.KernelIdeal.KS.v22 x7 (ix2 e 0) = wrap (x7 (ix2 0 e)) := by
  unfold Cert.KernelIdeal.KS.v22
  refine (broadcastInDim_apply _ _ _ (ix2 e 0) (ix1 e) fun a => ?_).trans ?_
  · match a with
    | ⟨0, _⟩ => show e.val = if (3200000 : Nat) = 1 then 0 else e.val; rw [if_neg (by decide)]
  · show Scalar.select (IntOp.cmpi .slt (Cert.KernelIdeal.KS.v1 x7 (ix1 e)) _)
        (IntOp.addi (Cert.KernelIdeal.KS.v1 x7 (ix1 e)) _) (Cert.KernelIdeal.KS.v1 x7 (ix1 e)) = _
    rw [bcastI_scalar, bcastI_scalar, k_src]
    rfl

end Kernel

/-! ## The edge-weighted program's columns -/

section Reference
open Cert.ReferenceIdeal.Read
variable (x7 : IVec (⟨2, ![2, 3200000]⟩ : Shape) 32)

/-- The extended source list on a real edge is row 0 of the edge list. -/
theorem r_src_real (e : Fin 3200000) :
    val_main_v3 (F := Ideal) x7 (ix1 (Fin.castAdd 100000 e : Fin 3300000)) = x7 (ix2 0 e) := by
  unfold val_main_v3
  refine (concatenate_pair_apply_left (s₁ := Cert.ReferenceIdeal.S3200000) (s₂ := Cert.ReferenceIdeal.S100000) 0 _ _ _ (ix1 (Fin.castAdd 100000 e : Fin 3300000)) rfl (ix1 e : Cert.ReferenceIdeal.S3200000.Idx) fun b => ?_).trans ?_
  · match b with
    | ⟨0, _⟩ => rfl
  · rw [val_main_v2_apply, val_main_v1_apply]
    refine congrArg x7 (funext fun a => Fin.ext ?_)
    match a with
    | ⟨0, _⟩ => rfl
    | ⟨1, _⟩ => show e.val % 3200000 = e.val; exact Nat.mod_eq_of_lt e.isLt

/-- The extended source list on node `n`'s self loop is `n`. -/
theorem r_src_loop (n : Fin 100000) :
    val_main_v3 (F := Ideal) x7 (ix1 (Fin.natAdd 3200000 n : Fin 3300000)) = BitVec.ofNat 32 n.val := by
  unfold val_main_v3
  refine (concatenate_pair_apply_right (s₁ := Cert.ReferenceIdeal.S3200000) (s₂ := Cert.ReferenceIdeal.S100000) 0 _ _ _ (ix1 (Fin.natAdd 3200000 n : Fin 3300000)) rfl rfl (ix1 n : Cert.ReferenceIdeal.S100000.Idx)
    (fun b hb => absurd (Subsingleton.elim _ _) hb) ?_).trans rfl
  show n.val + 3200000 = 3200000 + n.val
  omega

/-- The extended target list on a real edge is row 1 of the edge list. -/
theorem r_dst_real (e : Fin 3200000) :
    val_main_v6 (F := Ideal) x7 (ix1 (Fin.castAdd 100000 e : Fin 3300000)) = x7 (ix2 1 e) := by
  unfold val_main_v6
  refine (concatenate_pair_apply_left (s₁ := Cert.ReferenceIdeal.S3200000) (s₂ := Cert.ReferenceIdeal.S100000) 0 _ _ _ (ix1 (Fin.castAdd 100000 e : Fin 3300000)) rfl (ix1 e : Cert.ReferenceIdeal.S3200000.Idx) fun b => ?_).trans ?_
  · match b with
    | ⟨0, _⟩ => rfl
  · rw [val_main_v5_apply, val_main_v4_apply]
    refine congrArg x7 (funext fun a => Fin.ext ?_)
    match a with
    | ⟨0, _⟩ => rfl
    | ⟨1, _⟩ => show e.val % 3200000 = e.val; exact Nat.mod_eq_of_lt e.isLt

/-- The extended target list on node `n`'s self loop is `n`. -/
theorem r_dst_loop (n : Fin 100000) :
    val_main_v6 (F := Ideal) x7 (ix1 (Fin.natAdd 3200000 n : Fin 3300000)) = BitVec.ofNat 32 n.val := by
  unfold val_main_v6
  refine (concatenate_pair_apply_right (s₁ := Cert.ReferenceIdeal.S3200000) (s₂ := Cert.ReferenceIdeal.S100000) 0 _ _ _ (ix1 (Fin.natAdd 3200000 n : Fin 3300000)) rfl rfl (ix1 n : Cert.ReferenceIdeal.S100000.Idx)
    (fun b hb => absurd (Subsingleton.elim _ _) hb) ?_).trans rfl
  show n.val + 3200000 = 3200000 + n.val
  omega

/-- The scatter column holds the extended targets. -/
theorem r_scatter (e : Fin 3300000) : val_main_v9 (F := Ideal) x7 (ix2 e 0) = val_main_v6 (F := Ideal) x7 (ix1 e) :=
  (val_main_v9_apply x7 (ix2 e 0)).trans (congrArg (val_main_v6 (F := Ideal) x7) (funext fun a => match a with | ⟨0, _⟩ => rfl))

/-- The index column of the degree factor gathered at the targets holds the wrapped extended targets. -/
theorem r_gather_dst (e : Fin 3300000) :
    val_main_v19 (F := Ideal) x7 (ix2 e 0) = wrap (val_main_v6 (F := Ideal) x7 (ix1 e)) := by
  have hi : idx_main_v19 (ix2 e 0 : Cert.ReferenceIdeal.S3300000x1.Idx) = ix1 e := funext fun a => match a with | ⟨0, _⟩ => rfl
  rw [val_main_v19_apply, hi, val_main_v18_apply, val_main_v15_apply, val_main_v17_apply, val_main_v14_apply, val_main_v16_apply]
  rfl

/-- The index column of the gathers at the sources holds the wrapped extended sources. -/
theorem r_gather_src (e : Fin 3300000) :
    val_main_v26 (F := Ideal) x7 (ix2 e 0) = wrap (val_main_v3 (F := Ideal) x7 (ix1 e)) := by
  have hi : idx_main_v26 (ix2 e 0 : Cert.ReferenceIdeal.S3300000x1.Idx) = ix1 e := funext fun a => match a with | ⟨0, _⟩ => rfl
  rw [val_main_v26_apply, hi, val_main_v25_apply, val_main_v22_apply, val_main_v24_apply, val_main_v21_apply, val_main_v23_apply]
  rfl

/-- The program builds the scatter column three times and the source gather column three times: one term each. -/
theorem v41_eq : val_main_v41 (F := Ideal) x7 = val_main_v9 (F := Ideal) x7 := rfl
theorem v58_eq : val_main_v58 (F := Ideal) x7 = val_main_v9 (F := Ideal) x7 := rfl
theorem v36_eq : val_main_v36 (F := Ideal) x7 = val_main_v26 (F := Ideal) x7 := rfl
theorem v53_eq : val_main_v53 (F := Ideal) x7 = val_main_v26 (F := Ideal) x7 := rfl

end Reference

/-! ## The relations between the two programs' columns -/

section Relations
open Cert.ReferenceIdeal.Read
variable (x7 : IVec (⟨2, ![2, 3200000]⟩ : Shape) 32)

theorem hN : 0 < 100000 := by decide

/-- On a real edge the scatter columns agree. -/
theorem H1 (e : Fin 3200000) :
    val_main_v9 (F := Ideal) x7 (ix2 (Fin.castAdd 100000 e : Fin 3300000) 0) = Cert.KernelIdeal.KS.v6 x7 (ix2 e 0) := by
  rw [r_scatter, r_dst_real, k_scatter]

/-- On a real edge the gathered rows agree. -/
theorem H2 (e : Fin 3200000) :
    gatherRow hN (val_main_v26 (F := Ideal) x7) (Fin.castAdd 100000 e : Fin 3300000)
      = gatherRow hN (Cert.KernelIdeal.KS.v22 x7) e := by
  refine Fin.ext ?_
  show min (val_main_v26 (F := Ideal) x7 (ix2 (Fin.castAdd 100000 e : Fin 3300000) 0)).toInt.toNat (100000 - 1)
    = min (Cert.KernelIdeal.KS.v22 x7 (ix2 e 0)).toInt.toNat (100000 - 1)
  rw [r_gather_src, r_src_real, k_gather]

/-- On a real edge the source's degree factor is gathered at the gathered row. -/
theorem H3 (e : Fin 3200000) :
    gatherElt hN (val_main_v26 (F := Ideal) x7) (Fin.castAdd 100000 e : Fin 3300000)
      = gatherRow hN (Cert.KernelIdeal.KS.v22 x7) e := by
  refine Fin.ext ?_
  show min (val_main_v26 (F := Ideal) x7 (ix2 (Fin.castAdd 100000 e : Fin 3300000) 0)).toInt.toNat (100000 - 1)
    = min (Cert.KernelIdeal.KS.v22 x7 (ix2 e 0)).toInt.toNat (100000 - 1)
  rw [r_gather_src, r_src_real, k_gather]

/-- On a real edge that lands on node `i` the target's degree factor is gathered at `i`. -/
theorem H4 (e : Fin 3200000) (i : Fin 100000) (h : (Cert.KernelIdeal.KS.v6 x7 (ix2 e 0)).toInt = (i.val : Int)) :
    gatherElt hN (val_main_v19 (F := Ideal) x7) (Fin.castAdd 100000 e : Fin 3300000) = i := by
  refine Fin.ext ?_
  show min (val_main_v19 (F := Ideal) x7 (ix2 (Fin.castAdd 100000 e : Fin 3300000) 0)).toInt.toNat (100000 - 1) = i.val
  rw [r_gather_dst, r_dst_real]
  rw [k_scatter] at h
  exact clamp_wrap_of_eq h

/-- Node `n`'s self loop lands on node `i` exactly when `n = i`. -/
theorem H5 (n i : Fin 100000) :
    (val_main_v9 (F := Ideal) x7 (ix2 (Fin.natAdd 3200000 n : Fin 3300000) 0)).toInt = (i.val : Int) ↔ n = i := by
  rw [r_scatter, r_dst_loop, toInt_ofNat_small n.isLt]
  constructor
  · intro h; exact Fin.ext (by omega)
  · intro h; rw [h]

/-- Node `n`'s self loop gathers row `n`. -/
theorem H6 (n : Fin 100000) :
    gatherRow hN (val_main_v26 (F := Ideal) x7) (Fin.natAdd 3200000 n : Fin 3300000) = n := by
  refine Fin.ext ?_
  show min (val_main_v26 (F := Ideal) x7 (ix2 (Fin.natAdd 3200000 n : Fin 3300000) 0)).toInt.toNat (100000 - 1) = n.val
  rw [r_gather_src, r_src_loop]
  exact clamp_wrap_of_eq (toInt_ofNat_small n.isLt)

/-- Node `n`'s self loop gathers the source's degree factor at `n`. -/
theorem H7 (n : Fin 100000) :
    gatherElt hN (val_main_v26 (F := Ideal) x7) (Fin.natAdd 3200000 n : Fin 3300000) = n := by
  refine Fin.ext ?_
  show min (val_main_v26 (F := Ideal) x7 (ix2 (Fin.natAdd 3200000 n : Fin 3300000) 0)).toInt.toNat (100000 - 1) = n.val
  rw [r_gather_src, r_src_loop]
  exact clamp_wrap_of_eq (toInt_ofNat_small n.isLt)

/-- Node `n`'s self loop gathers the target's degree factor at `n`. -/
theorem H8 (n : Fin 100000) :
    gatherElt hN (val_main_v19 (F := Ideal) x7) (Fin.natAdd 3200000 n : Fin 3300000) = n := by
  refine Fin.ext ?_
  show min (val_main_v19 (F := Ideal) x7 (ix2 (Fin.natAdd 3200000 n : Fin 3300000) 0)).toInt.toNat (100000 - 1) = n.val
  rw [r_gather_dst, r_dst_loop]
  exact clamp_wrap_of_eq (toInt_ofNat_small n.isLt)

end Relations

end Cert.EdgeIndex

end
-- ==== Proof.GraphAlg.lean ====
/-
  The algebra of a graph-convolution layer on the extended reals.

  A layer with symmetric degree normalisation sends node features `h` to
    `out[i] = ∑ over the edges e into i, the self loop included, of (h·W)[src e] · (d[i] · d[src e])  +  b`,
  where `d[i]` is the inverse square root of node `i`'s degree. Factoring `d[i]` out of the sum and treating the self
  loop as one more term gives `out[i] = d[i] · (∑ over the real edges e into i of ((h·W)[src e] · d[src e]) + (h·W)[i] · d[i]) + b`.
  The degree factor is a nonnegative REAL number, and multiplication by a nonnegative real distributes over every sum
  of extended reals, so the identity needs nothing of the features themselves.
-/
import Idealize.ShloMosaic.PureOps.Ideal

noncomputable section

open scoped BigOperators

namespace Cert.GraphAlg

open Idealize.ShloMosaic

/-- Multiplication by a nonnegative real distributes over a sum of two extended reals. -/
theorem scale_add {r : ℝ} (hr : 0 ≤ r) (a b : EReal) : (r : EReal) * (a + b) = (r : EReal) * a + (r : EReal) * b :=
  EReal.left_distrib_of_nonneg_of_ne_top (EReal.coe_nonneg.mpr hr) (EReal.coe_ne_top r) a b

/-- Multiplication by a nonnegative real distributes over a finite sum of extended reals. -/
theorem scale_sum {ι : Type*} (s : Finset ι) {r : ℝ} (hr : 0 ≤ r) (f : ι → EReal) :
    (r : EReal) * ∑ i ∈ s, f i = ∑ i ∈ s, (r : EReal) * f i := by
  classical
  induction s using Finset.induction_on with
  | empty => rw [Finset.sum_empty, Finset.sum_empty, mul_zero]
  | insert a s ha ih => rw [Finset.sum_insert ha, Finset.sum_insert ha, scale_add hr, ih]

/-- THE LAYER IDENTITY at one entry: the degree factor `r` of the target node times (the aggregated scaled messages plus
    the node's own scaled row), against the sum of the messages each scaled by both degree factors with the self loop's
    term among them. -/
theorem layer_entry {ι : Type*} (P : Finset ι) (hw dg : ι → EReal) (own b : EReal) {r : ℝ} (hr : 0 ≤ r) :
    (r : EReal) * ((0 + ∑ e ∈ P, hw e * dg e) + own * (r : EReal)) + b
      = (0 + (∑ e ∈ P, hw e * ((r : EReal) * dg e) + own * ((r : EReal) * (r : EReal)))) + b := by
  rw [zero_add, zero_add, scale_add hr, scale_sum P hr]
  congr 2
  · exact Finset.sum_congr rfl fun e _ => mul_left_comm _ _ _
  · exact mul_left_comm _ _ _

/-- A sum over the entries of a list of `E` edges followed by `N` more that satisfy a condition, split into the two
    parts. -/
theorem sum_filter_append {E N : ℕ} (p : Fin (E + N) → Prop) [DecidablePred p] (f : Fin (E + N) → EReal) :
    ∑ e ∈ Finset.univ.filter p, f e
      = ∑ e ∈ (Finset.univ : Finset (Fin E)).filter (fun e => p (Fin.castAdd N e)), f (Fin.castAdd N e)
        + ∑ n ∈ (Finset.univ : Finset (Fin N)).filter (fun n => p (Fin.natAdd E n)), f (Fin.natAdd E n) := by
  rw [Finset.sum_filter, Finset.sum_filter, Finset.sum_filter, Fin.sum_univ_add]

/-- A sum over the nodes that ARE a given node is that node's term. -/
theorem sum_filter_single {N : ℕ} (i : Fin N) (q : Fin N → Prop) [DecidablePred q] (hq : ∀ n, q n ↔ n = i)
    (g : Fin N → EReal) : ∑ n ∈ Finset.univ.filter q, g n = g i := by
  have h : Finset.univ.filter q = {i} := by
    ext n
    rw [Finset.mem_filter, Finset.mem_singleton]
    exact ⟨fun h => (hq n).mp h.2, fun h => ⟨Finset.mem_univ _, (hq n).mpr h⟩⟩
  rw [h, Finset.sum_singleton]

/-- A count of ones, started at zero, plus one is the real number `card + 1`. -/
theorem count_add_one {ι : Type*} (s : Finset ι) :
    ((0 : EReal) + ∑ _e ∈ s, (1 : EReal)) + 1 = (((s.card : ℝ) + 1 : ℝ) : EReal) := by
  rw [zero_add, Finset.sum_const, nsmul_one, EReal.coe_add, EReal.coe_one, EReal.coe_coe_eq_natCast]

/-- The inverse square root of a degree (a count of ones plus one, clamped below by one) is a nonnegative real. -/
theorem rsqrt_degree {ι : Type*} (s : Finset ι) :
    ∃ r : ℝ, 0 ≤ r ∧ Ideal.rsqrt (max (((0 : EReal) + ∑ _e ∈ s, (1 : EReal)) + 1) 1) = (r : EReal) := by
  have hpos : (0 : ℝ) < (s.card : ℝ) + 1 := by positivity
  have hge : (1 : EReal) ≤ (((s.card : ℝ) + 1 : ℝ) : EReal) := by
    rw [← EReal.coe_one, EReal.coe_le_coe_iff]
    have : (0 : ℝ) ≤ (s.card : ℝ) := Nat.cast_nonneg _
    linarith
  refine ⟨(Real.sqrt ((s.card : ℝ) + 1))⁻¹, inv_nonneg.mpr (Real.sqrt_nonneg _), ?_⟩
  rw [count_add_one, max_eq_left hge, Ideal.rsqrt_coe, if_neg (not_lt.mpr hpos.le), if_neg hpos.ne']

end Cert.GraphAlg

end
-- ==== Proof.Degree.lean ====
/-
  The degree factor, in both programs, is one nonnegative real number per node.

  A node's degree is the number of real edges into it plus one for its self loop. The factored program counts the real
  edges (ones scatter-added at the targets) and adds one; the edge-weighted program counts over the extended edge list,
  where the self loop of node `n` lands on `n` only. Both clamp the degree below by one and take the inverse square root:
  the same extended real, the coercion of the nonnegative real `dval i`.
-/
import proofs.«138896_j86277303042435_2_alg».proof.Proof.EdgeIndex
import proofs.«138896_j86277303042435_2_alg».proof.Proof.GraphAlg

noncomputable section

open scoped BigOperators

namespace Cert.Degree

open Idealize.ShloMosaic Idealize.ShloMosaic.ValueIdx Cert.VecOps Cert.GraphAlg Cert.EdgeIndex

/-! ## The elementwise operations at an index, at the ideal values -/

section Apply
variable {s : Shape}

theorem vmax_apply (a b : FVec Ideal s .f32) (j : s.Idx) : maximumf a b j = max (a j) (b j) := rfl
theorem vadd_apply (a b : FVec Ideal s .f32) (j : s.Idx) : addf a b j = a j + b j := rfl
theorem vmul_apply (a b : FVec Ideal s .f32) (j : s.Idx) : mulf a b j = a j * b j := rfl
theorem hrsqrt_apply (a : FVec Ideal s .f32) (j : s.Idx) : Host.rsqrt a j = Ideal.rsqrt (a j) := rfl
theorem hscatter_eq {si u : Shape} {w : Nat} (d : ScatterDims s si u) (x : FVec Ideal s .f32) (idx : IVec si w)
    (upd : FVec Ideal u .f32) : Host.scatterAdd d x idx upd = Ideal.hostScatterAdd d x idx upd := rfl

end Apply

/-- The float `1.0` denotes the extended real `1`. -/
theorem ofBits_one : Ideal.ofBits .f32 0x3F800000#32 = 1 := by
  simp [Ideal.ofBits, Ideal.ieee, -EReal.coe_mul]; norm_num

/-- A scalar float constant broadcast to any shape is that constant's value everywhere. -/
theorem bcastF_scalar {t : Shape} (h : (⟨0, ![]⟩ : Shape).BroadcastsInDim t ![]) (w : BitVec 32) (j : t.Idx) :
    broadcastInDim t ![] h (constant (F := Ideal) ⟨0, ![]⟩ .f32 w) j = Ideal.ofBits .f32 w :=
  broadcastInDim_apply _ h _ j (fun a => a.elim0) (fun a => a.elim0)

/-- The factored program's degree scatter is an element scatter into `[100000]` from `3200000` edges. -/
theorem dimsK : Cert.KernelIdeal.scatter_S100000_S3200000x1_S3200000_n_0_0_1
    = vecScatterDims 100000 3200000 Cert.KernelIdeal.Gen.scatter_S100000_S3200000x1_S3200000_n_0_0_1_wf := rfl

/-- The edge-weighted program's degree scatter is an element scatter into `[100000]` from `3300000` edges. -/
theorem dimsR : Cert.ReferenceIdeal.scatter_S100000_S3300000x1_S3300000_n_0_0_1
    = vecScatterDims 100000 3300000 Cert.ReferenceIdeal.Gen.scatter_S100000_S3300000x1_S3300000_n_0_0_1_wf := rfl

variable (x7 : IVec (⟨2, ![2, 3200000]⟩ : Shape) 32)

/-- The real edges into node `i`. -/
def into (i : Fin 100000) : Finset (Fin 3200000) :=
  Finset.univ.filter (fun e : Fin 3200000 => (Cert.KernelIdeal.KS.v6 x7 (ix2 e 0)).toInt = (i.val : Int))

/-- Node `i`'s degree factor as a real number. -/
def dval (i : Fin 100000) : ℝ := Classical.choose (rsqrt_degree (into x7 i))

theorem dval_nonneg (i : Fin 100000) : 0 ≤ dval x7 i := (Classical.choose_spec (rsqrt_degree (into x7 i))).1

theorem dval_spec (i : Fin 100000) :
    Ideal.rsqrt (max (((0 : EReal) + ∑ _e ∈ into x7 i, (1 : EReal)) + 1) 1) = ((dval x7 i : ℝ) : EReal) :=
  (Classical.choose_spec (rsqrt_degree (into x7 i))).2

/-! ## The factored program -/

/-- The number of real edges into node `i`, as the factored program counts it. -/
theorem cnt_k (i : Fin 100000) : Cert.KernelIdeal.KS.v7 x7 (ix1 i) = 0 + ∑ _e ∈ into x7 i, (1 : EReal) := by
  unfold Cert.KernelIdeal.KS.v7 into
  rw [hscatter_eq, dimsK, vecScatterAdd_apply, bcastF_scalar, Ideal.ofBits_zero_f32]
  refine congrArg (fun s => (0 : EReal) + s) (Finset.sum_congr rfl fun e _ => ?_)
  rw [bcastF_scalar, ofBits_one]

/-- The clamped degree of node `i`, factored program. -/
theorem deg_k (i : Fin 100000) :
    Cert.KernelIdeal.KS.v11 x7 (ix1 i) = max (((0 : EReal) + ∑ _e ∈ into x7 i, (1 : EReal)) + 1) 1 := by
  unfold Cert.KernelIdeal.KS.v11 Cert.KernelIdeal.KS.v9
  rw [vmax_apply, vadd_apply, cnt_k, bcastF_scalar, ofBits_one]

/-- The factored program's degree factor at node `i`. -/
theorem dinv_k (i : Fin 100000) : Cert.KernelIdeal.KS.v12 x7 (ix1 i) = ((dval x7 i : ℝ) : EReal) := by
  unfold Cert.KernelIdeal.KS.v12
  rw [hrsqrt_apply, deg_k]
  exact dval_spec x7 i

/-! ## The edge-weighted program -/

open Cert.ReferenceIdeal.Read in
/-- The count over the extended edge list: the real edges into `i`, and `i`'s own self loop. -/
theorem count_r (i : Fin 100000) :
    (∑ e ∈ (Finset.univ : Finset (Fin 3300000)).filter
        (fun e => (val_main_v9 (F := Ideal) x7 (ix2 e 0)).toInt = (i.val : Int)), val_main_v7 (F := Ideal) (ix1 e))
      = (∑ _e ∈ into x7 i, (1 : EReal)) + 1 := by
  refine (sum_filter_append (E := 3200000) (N := 100000)
    (fun e : Fin 3300000 => (val_main_v9 (F := Ideal) x7 (ix2 e 0)).toInt = (i.val : Int))
    (fun e : Fin 3300000 => val_main_v7 (F := Ideal) (ix1 e))).trans ?_
  refine congrArg₂ (· + ·) ?_ ?_
  · unfold into
    refine Finset.sum_congr (Finset.filter_congr fun e _ => ?_) fun e _ => ?_
    · show (val_main_v9 (F := Ideal) x7 (ix2 (Fin.castAdd 100000 e : Fin 3300000) 0)).toInt = _ ↔ _
      rw [H1 x7 e]
    · exact (val_main_v7_apply _).trans ofBits_one
  · rw [sum_filter_single i _ (fun n => H5 x7 n i)]
    exact (val_main_v7_apply _).trans ofBits_one

open Cert.ReferenceIdeal.Read in
/-- The degree of node `i`, as the edge-weighted program counts it. -/
theorem cnt_r (i : Fin 100000) :
    val_main_v10 (F := Ideal) x7 (ix1 i) = ((0 : EReal) + ∑ _e ∈ into x7 i, (1 : EReal)) + 1 := by
  unfold val_main_v10
  rw [hscatter_eq, dimsR, vecScatterAdd_apply, count_r, val_main_v8_apply, val_main_cst_0_apply, Ideal.ofBits_def,
    Ideal.ofBits_zero_f32, add_assoc]

open Cert.ReferenceIdeal.Read in
/-- The clamped degree of node `i`, edge-weighted program. -/
theorem deg_r (i : Fin 100000) :
    val_main_v12 (F := Ideal) x7 (ix1 i) = max (((0 : EReal) + ∑ _e ∈ into x7 i, (1 : EReal)) + 1) 1 := by
  rw [val_main_v12_apply, Ideal.maximumf_def, cnt_r, val_main_v11_apply, val_main_cst_1_apply, Ideal.ofBits_def, ofBits_one]

open Cert.ReferenceIdeal.Read in
/-- The edge-weighted program's degree factor at node `i`. -/
theorem dinv_r (i : Fin 100000) : val_main_v13 (F := Ideal) x7 (ix1 i) = ((dval x7 i : ℝ) : EReal) := by
  rw [val_main_v13_apply, Ideal.hostUnary_rsqrt_def, deg_r]
  exact dval_spec x7 i

end Cert.Degree

end
-- ==== Proof.LayerOps.lean ====
/-
  One graph-convolution layer, read off its gather / scatter-add operations in two arrangements and shown to be one function.

  FACTORED arrangement (`E` real edges): the node rows already carry their own degree factor, `hs[n] = hw[n] · d[n]`; the rows
  are gathered at the edges' sources, scatter-added at the edges' targets, and the epilogue adds the node's own row and
  multiplies by the target's degree factor: `max (d[i] · (agg[i] + hs[i]) + b) 0`.
  EDGE-WEIGHTED arrangement (`E + N` edges: the real ones followed by one self loop per node): the plain rows `hw` are
  gathered at the sources, each multiplied by the edge weight `d[target] · d[source]` (two element gathers of `d`), and
  scatter-added at the targets: `max (agg'[i] + b) 0`.
  The index arrays of the two arrangements are related by the hypotheses `H…`: on a real edge they agree, and the self
  loop of node `n` has source and target `n`.
-/
import proofs.«138896_j86277303042435_2_alg».proof.Proof.LibRowGatherScatter
import proofs.«138896_j86277303042435_2_alg».proof.Proof.LibVecGatherScatter
import proofs.«138896_j86277303042435_2_alg».proof.Proof.GraphAlg

noncomputable section

open scoped BigOperators

namespace Cert.LayerOps

open Idealize.ShloMosaic Idealize.ShloMosaic.ValueIdx Cert.RowOps Cert.VecOps Cert.GraphAlg

variable {N E C : ℕ} (hN : 0 < N)
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)
  (wfG' : GatherDims.WF ⟨2, ![N, C]⟩ ⟨2, ![E + N, 1]⟩ ⟨2, ![E + N, C]⟩ [1] [0] [] [0] [] 1 ![1, C])
  (wfS' : ScatterDims.WF ⟨2, ![N, C]⟩ ⟨2, ![E + N, 1]⟩ ⟨2, ![E + N, C]⟩ [1] [0] [0] 1)
  (wfV' : GatherDims.WF ⟨1, ![N]⟩ ⟨2, ![E + N, 1]⟩ ⟨1, ![E + N]⟩ [] [0] [] [0] [] 1 ![1])

/-- The two arrangements of one layer agree at every entry `(i, c)`. `d` are the degree factors (nonnegative reals),
    `hw` the plain rows, `sK gK` the factored arrangement's scatter and gather index columns, `sR gR` the edge-weighted
    one's, `gdR gsR` its index columns for the two gathers of `d`; `zK zR` the zero arrays the sums start from. -/
theorem layer_eq (d : Fin N → ℝ) (hd : ∀ n, 0 ≤ d n) (hw : (⟨2, ![N, C]⟩ : Shape).Idx → EReal) (b : Fin C → EReal)
    (zK zR : (⟨2, ![N, C]⟩ : Shape).Idx → EReal) (hzK : ∀ j, zK j = 0) (hzR : ∀ j, zR j = 0)
    (sK gK : IVec ⟨2, ![E, 1]⟩ 32) (sR gR gdR gsR : IVec ⟨2, ![E + N, 1]⟩ 32)
    (H1 : ∀ e : Fin E, sR (ix2 (Fin.castAdd N e) 0) = sK (ix2 e 0))
    (H2 : ∀ e : Fin E, gatherRow hN gR (Fin.castAdd N e) = gatherRow hN gK e)
    (H3 : ∀ e : Fin E, gatherElt hN gsR (Fin.castAdd N e) = gatherRow hN gK e)
    (H4 : ∀ (e : Fin E) (i : Fin N), (sK (ix2 e 0)).toInt = (i.val : Int) → gatherElt hN gdR (Fin.castAdd N e) = i)
    (H5 : ∀ n i : Fin N, (sR (ix2 (Fin.natAdd E n) 0)).toInt = (i.val : Int) ↔ n = i)
    (H6 : ∀ n : Fin N, gatherRow hN gR (Fin.natAdd E n) = n)
    (H7 : ∀ n : Fin N, gatherElt hN gsR (Fin.natAdd E n) = n)
    (H8 : ∀ n : Fin N, gatherElt hN gdR (Fin.natAdd E n) = n)
    (i : Fin N) (c : Fin C) :
    max (((d i : ℝ) : EReal)
          * (Ideal.hostScatterAdd (rowScatterDims N E C wfS) zK sK
              (Host.gather (rowGatherDims N E C wfG) (fun j => hw j * ((d (j 0) : ℝ) : EReal)) gK) (ix2 i c)
            + hw (ix2 i c) * ((d i : ℝ) : EReal))
          + b c) 0
      = max (Ideal.hostScatterAdd (rowScatterDims N (E + N) C wfS') zR sR
              (fun j => Host.gather (rowGatherDims N (E + N) C wfG') hw gR j
                * (Host.gather (vecGatherDims N (E + N) wfV') (fun q => ((d (q 0) : ℝ) : EReal)) gdR (ix1 (j 0))
                  * Host.gather (vecGatherDims N (E + N) wfV') (fun q => ((d (q 0) : ℝ) : EReal)) gsR (ix1 (j 0))))
              (ix2 i c)
          + b c) 0 := by
  congr 1
  rw [rowScatterAdd_apply, rowScatterAdd_apply, hzK, hzR, sum_filter_append]
  -- the real edges' part of the edge-weighted sum
  have hA : ∑ e ∈ (Finset.univ : Finset (Fin E)).filter
        (fun e => (sR (ix2 (Fin.castAdd N e) 0)).toInt = (i.val : Int)),
        (Host.gather (rowGatherDims N (E + N) C wfG') hw gR (ix2 (Fin.castAdd N e) c)
          * (Host.gather (vecGatherDims N (E + N) wfV') (fun q => ((d (q 0) : ℝ) : EReal)) gdR (ix1 ((ix2 (Fin.castAdd N e) c : (⟨2, ![E + N, C]⟩ : Shape).Idx) 0))
            * Host.gather (vecGatherDims N (E + N) wfV') (fun q => ((d (q 0) : ℝ) : EReal)) gsR (ix1 ((ix2 (Fin.castAdd N e) c : (⟨2, ![E + N, C]⟩ : Shape).Idx) 0))))
      = ∑ e ∈ (Finset.univ : Finset (Fin E)).filter (fun e => (sK (ix2 e 0)).toInt = (i.val : Int)),
          hw (ix2 (gatherRow hN gK e) c) * (((d i : ℝ) : EReal) * ((d (gatherRow hN gK e) : ℝ) : EReal)) := by
    refine Finset.sum_congr (Finset.filter_congr fun e _ => by rw [H1 e]) fun e he => ?_
    have hi := (Finset.mem_filter.mp he).2
    show Host.gather (rowGatherDims N (E + N) C wfG') hw gR (ix2 (Fin.castAdd N e) c)
        * (Host.gather (vecGatherDims N (E + N) wfV') (fun q => ((d (q 0) : ℝ) : EReal)) gdR (ix1 (Fin.castAdd N e))
          * Host.gather (vecGatherDims N (E + N) wfV') (fun q => ((d (q 0) : ℝ) : EReal)) gsR (ix1 (Fin.castAdd N e))) = _
    rw [rowGather_apply hN, vecGather_apply hN, vecGather_apply hN, H2 e, H3 e, H4 e i hi]
    rfl
  -- the self loops' part: only node `i`'s own loop lands on `i`
  have hB : ∑ n ∈ (Finset.univ : Finset (Fin N)).filter
        (fun n => (sR (ix2 (Fin.natAdd E n) 0)).toInt = (i.val : Int)),
        (Host.gather (rowGatherDims N (E + N) C wfG') hw gR (ix2 (Fin.natAdd E n) c)
          * (Host.gather (vecGatherDims N (E + N) wfV') (fun q => ((d (q 0) : ℝ) : EReal)) gdR (ix1 ((ix2 (Fin.natAdd E n) c : (⟨2, ![E + N, C]⟩ : Shape).Idx) 0))
            * Host.gather (vecGatherDims N (E + N) wfV') (fun q => ((d (q 0) : ℝ) : EReal)) gsR (ix1 ((ix2 (Fin.natAdd E n) c : (⟨2, ![E + N, C]⟩ : Shape).Idx) 0))))
      = hw (ix2 i c) * (((d i : ℝ) : EReal) * ((d i : ℝ) : EReal)) := by
    rw [sum_filter_single i _ (fun n => H5 n i)]
    show Host.gather (rowGatherDims N (E + N) C wfG') hw gR (ix2 (Fin.natAdd E i) c)
        * (Host.gather (vecGatherDims N (E + N) wfV') (fun q => ((d (q 0) : ℝ) : EReal)) gdR (ix1 (Fin.natAdd E i))
          * Host.gather (vecGatherDims N (E + N) wfV') (fun q => ((d (q 0) : ℝ) : EReal)) gsR (ix1 (Fin.natAdd E i))) = _
    rw [rowGather_apply hN, vecGather_apply hN, vecGather_apply hN, H6 i, H7 i, H8 i]
    rfl
  rw [hA, hB]
  -- the factored sum's terms: the gathered row carries its own degree factor
  have hK : ∑ e ∈ (Finset.univ : Finset (Fin E)).filter (fun e => (sK (ix2 e 0)).toInt = (i.val : Int)),
        Host.gather (rowGatherDims N E C wfG) (fun j => hw j * ((d (j 0) : ℝ) : EReal)) gK (ix2 e c)
      = ∑ e ∈ (Finset.univ : Finset (Fin E)).filter (fun e => (sK (ix2 e 0)).toInt = (i.val : Int)),
          hw (ix2 (gatherRow hN gK e) c) * ((d (gatherRow hN gK e) : ℝ) : EReal) := by
    refine Finset.sum_congr rfl fun e _ => ?_
    rw [rowGather_apply hN]
    rfl
  rw [hK]
  exact layer_entry _ (fun e => hw (ix2 (gatherRow hN gK e) c)) (fun e => ((d (gatherRow hN gK e) : ℝ) : EReal))
    (hw (ix2 i c)) (b c) (hd i)

end Cert.LayerOps

end
-- ==== Proof.Bridge.lean ====
/-
  The node features after the two layers are the same array in both programs.

  Layer by layer: the factored program's scaled projection `(h · W) · d` is the edge-weighted program's plain projection
  `h · W` times the degree factor; the gathers and scatter-adds of the two programs are read at an index and related by
  the edge-list relations; the layer identity then gives equal outputs, and the equal outputs of layer one feed layer two.
-/
import proofs.«138896_j86277303042435_2_alg».proof.Proof.EdgeIndex
import proofs.«138896_j86277303042435_2_alg».proof.Proof.Degree
import proofs.«138896_j86277303042435_2_alg».proof.Proof.LayerOps

noncomputable section

open scoped BigOperators

namespace Cert.Bridge

open Idealize.ShloMosaic Idealize.ShloMosaic.ValueIdx Cert.RowOps Cert.VecOps Cert.EdgeIndex Cert.Degree Cert.LayerOps
open Cert.ReferenceIdeal.Read

/-! ## The two node-level functions at an entry -/

theorem post_apply {N C : Nat} (agg own : (⟨2, ![N, C]⟩ : Shape).Idx → EReal) (d : (⟨2, ![N, 1]⟩ : Shape).Idx → EReal)
    (b : (⟨2, ![1, C]⟩ : Shape).Idx → EReal) (i : Fin N) (c : Fin C) :
    Cert.Spec.post N C agg own d b (ix2 i c) = max (d (ix2 i 0) * (agg (ix2 i c) + own (ix2 i c)) + b (ix2 0 c)) 0 := rfl

theorem lin_apply {N K C : Nat} (x : (⟨2, ![N, K]⟩ : Shape).Idx → EReal) (W : (⟨2, ![K, C]⟩ : Shape).Idx → EReal)
    (d : (⟨2, ![N, 1]⟩ : Shape).Idx → EReal) (i : Fin N) (c : Fin C) :
    Cert.Spec.lin N K C x W d (ix2 i c) = (∑ k : Fin K, x (ix2 i k) * W (ix2 k c)) * d (ix2 i 0) := rfl

/-! ## The programs' gather and scatter records are row / element gathers and scatters -/

theorem gK32 : Cert.KernelIdeal.gather_S100000x32_S3200000x1_S3200000x32_1_0_n_n_0_1_132
    = rowGatherDims 100000 3200000 32 Cert.KernelIdeal.Gen.gather_S100000x32_S3200000x1_S3200000x32_1_0_n_n_0_1_132_wf := rfl
theorem sK32 : Cert.KernelIdeal.scatter_S100000x32_S3200000x1_S3200000x32_1_0_0_1
    = rowScatterDims 100000 3200000 32 Cert.KernelIdeal.Gen.scatter_S100000x32_S3200000x1_S3200000x32_1_0_0_1_wf := rfl
theorem gK8 : Cert.KernelIdeal.gather_S100000x8_S3200000x1_S3200000x8_1_0_n_n_0_1_18
    = rowGatherDims 100000 3200000 8 Cert.KernelIdeal.Gen.gather_S100000x8_S3200000x1_S3200000x8_1_0_n_n_0_1_18_wf := rfl
theorem sK8 : Cert.KernelIdeal.scatter_S100000x8_S3200000x1_S3200000x8_1_0_0_1
    = rowScatterDims 100000 3200000 8 Cert.KernelIdeal.Gen.scatter_S100000x8_S3200000x1_S3200000x8_1_0_0_1_wf := rfl
theorem gR32 : Cert.ReferenceIdeal.gather_S100000x32_S3300000x1_S3300000x32_1_0_n_n_0_1_132
    = rowGatherDims 100000 3300000 32 Cert.ReferenceIdeal.Gen.gather_S100000x32_S3300000x1_S3300000x32_1_0_n_n_0_1_132_wf := rfl
theorem sR32 : Cert.ReferenceIdeal.scatter_S100000x32_S3300000x1_S3300000x32_1_0_0_1
    = rowScatterDims 100000 3300000 32 Cert.ReferenceIdeal.Gen.scatter_S100000x32_S3300000x1_S3300000x32_1_0_0_1_wf := rfl
theorem gR8 : Cert.ReferenceIdeal.gather_S100000x8_S3300000x1_S3300000x8_1_0_n_n_0_1_18
    = rowGatherDims 100000 3300000 8 Cert.ReferenceIdeal.Gen.gather_S100000x8_S3300000x1_S3300000x8_1_0_n_n_0_1_18_wf := rfl
theorem sR8 : Cert.ReferenceIdeal.scatter_S100000x8_S3300000x1_S3300000x8_1_0_0_1
    = rowScatterDims 100000 3300000 8 Cert.ReferenceIdeal.Gen.scatter_S100000x8_S3300000x1_S3300000x8_1_0_0_1_wf := rfl
theorem gR1 : Cert.ReferenceIdeal.gather_S100000_S3300000x1_S3300000_n_0_n_n_0_1_1
    = vecGatherDims 100000 3300000 Cert.ReferenceIdeal.Gen.gather_S100000_S3300000x1_S3300000_n_0_n_n_0_1_1_wf := rfl

variable (x0 : FVec Ideal Cert.KernelIdeal.S100000x1081 .f32) (x1 : FVec Ideal Cert.KernelIdeal.S1081x32 .f32)
  (x2 : FVec Ideal Cert.KernelIdeal.S32 .f32) (x3 : FVec Ideal Cert.KernelIdeal.S32x8 .f32)
  (x4 : FVec Ideal Cert.KernelIdeal.S8 .f32) (x7 : IVec Cert.KernelIdeal.S2x3200000 32)

/-! ## Small reads shared by the two layers -/

/-- The factored program's degree column at row `i`. -/
theorem k_dcol (i : Fin 100000) : Cert.KernelIdeal.KS.v13 x7 (ix2 i 0) = ((dval x7 i : ℝ) : EReal) := by
  unfold Cert.KernelIdeal.KS.v13
  refine (broadcastInDim_apply _ _ _ (ix2 i 0) (ix1 i) fun a => ?_).trans (dinv_k x7 i)
  match a with
  | ⟨0, _⟩ => show i.val = if (100000 : Nat) = 1 then 0 else i.val; rw [if_neg (by decide)]

/-- The edge-weighted program's degree vector. -/
theorem r_dvec : val_main_v13 (F := Ideal) x7 = fun q => ((dval x7 (q 0) : ℝ) : EReal) :=
  funext fun q => (congrArg (val_main_v13 (F := Ideal) x7) (eq_ix1 q)).trans (dinv_r x7 (q 0))

/-- A float zero broadcast to any shape is `0` everywhere. -/
theorem zero_bcast {t : Shape} (h : (⟨0, ![]⟩ : Shape).BroadcastsInDim t ![]) (j : t.Idx) :
    broadcastInDim t ![] h (constant (F := Ideal) ⟨0, ![]⟩ .f32 0x00000000#32) j = 0 :=
  (bcastF_scalar h _ j).trans Ideal.ofBits_zero_f32

/-! ## Layer one -/

/-- Layer one's bias row, factored program. -/
theorem k_bias1 (c : Fin 32) : Cert.KernelIdeal.KS.v14 x2 (ix2 0 c) = x2 (ix1 c) := by
  unfold Cert.KernelIdeal.KS.v14
  refine broadcastInDim_apply _ _ _ (ix2 0 c) (ix1 c) fun a => ?_
  match a with
  | ⟨0, _⟩ => show c.val = if (32 : Nat) = 1 then 0 else c.val; rw [if_neg (by decide)]

/-- Layer one's bias array, edge-weighted program. -/
theorem r_bias1 (i : Fin 100000) (c : Fin 32) : val_main_v44 (F := Ideal) x2 (ix2 i c) = x2 (ix1 c) := by
  rw [val_main_v44_apply, val_main_v43_apply]
  exact congrArg x2 (funext fun a => match a with | ⟨0, _⟩ => rfl)

/-- Layer one's scaled projection is the plain projection times the row's degree factor. -/
theorem k16 : Cert.KernelIdeal.KS.v16 x0 x1 x7 = fun j => val_main_v30 (F := Ideal) x0 x1 j * ((dval x7 (j 0) : ℝ) : EReal) := by
  funext j
  obtain ⟨i, c, rfl⟩ : ∃ (i : Fin 100000) (c : Fin 32), j = ix2 i c := ⟨j 0, j 1, eq_ix2 j⟩
  show Cert.KernelIdeal.KS.v16 x0 x1 x7 (ix2 i c) = val_main_v30 (F := Ideal) x0 x1 (ix2 i c) * ((dval x7 i : ℝ) : EReal)
  unfold Cert.KernelIdeal.KS.v16
  rw [lin_apply, val_main_v30_apply, k_dcol]
  refine congrArg (· * ((dval x7 i : ℝ) : EReal)) (Finset.sum_congr rfl fun k _ => ?_)
  rw [show lidx_main_v30 (ix2 i c) k = ix2 i k from funext fun a => match a with | ⟨0, _⟩ => rfl | ⟨1, _⟩ => rfl,
    show ridx_main_v30 (ix2 i c) k = ix2 k c from funext fun a => match a with | ⟨0, _⟩ => rfl | ⟨1, _⟩ => rfl]

/-- Layer one's messages, edge-weighted program: the gathered row times the two gathered degree factors. -/
theorem r39 : val_main_v39 (F := Ideal) x0 x1 x7
    = fun j => Host.gather (rowGatherDims 100000 3300000 32
          Cert.ReferenceIdeal.Gen.gather_S100000x32_S3300000x1_S3300000x32_1_0_n_n_0_1_132_wf) (val_main_v30 (F := Ideal) x0 x1)
          (val_main_v36 (F := Ideal) x7) j
        * (Host.gather (vecGatherDims 100000 3300000
              Cert.ReferenceIdeal.Gen.gather_S100000_S3300000x1_S3300000_n_0_n_n_0_1_1_wf) (fun q => ((dval x7 (q 0) : ℝ) : EReal))
              (val_main_v19 (F := Ideal) x7) (ix1 (j 0))
          * Host.gather (vecGatherDims 100000 3300000
              Cert.ReferenceIdeal.Gen.gather_S100000_S3300000x1_S3300000_n_0_n_n_0_1_1_wf) (fun q => ((dval x7 (q 0) : ℝ) : EReal))
              (val_main_v26 (F := Ideal) x7) (ix1 (j 0))) := by
  funext j
  obtain ⟨e, c, rfl⟩ : ∃ (e : Fin 3300000) (c : Fin 32), j = ix2 e c := ⟨j 0, j 1, eq_ix2 j⟩
  show val_main_v39 (F := Ideal) x0 x1 x7 (ix2 e c)
    = Host.gather (rowGatherDims 100000 3300000 32
          Cert.ReferenceIdeal.Gen.gather_S100000x32_S3300000x1_S3300000x32_1_0_n_n_0_1_132_wf) (val_main_v30 (F := Ideal) x0 x1)
          (val_main_v36 (F := Ideal) x7) (ix2 e c)
        * (Host.gather (vecGatherDims 100000 3300000
              Cert.ReferenceIdeal.Gen.gather_S100000_S3300000x1_S3300000_n_0_n_n_0_1_1_wf) (fun q => ((dval x7 (q 0) : ℝ) : EReal))
              (val_main_v19 (F := Ideal) x7) (ix1 e)
          * Host.gather (vecGatherDims 100000 3300000
              Cert.ReferenceIdeal.Gen.gather_S100000_S3300000x1_S3300000_n_0_n_n_0_1_1_wf) (fun q => ((dval x7 (q 0) : ℝ) : EReal))
              (val_main_v26 (F := Ideal) x7) (ix1 e))
  have hidx : idx_main_v29 (idx_main_v38 (ix2 e c : Cert.ReferenceIdeal.S3300000x32.Idx)) = ix1 e :=
    funext fun a => match a with | ⟨0, _⟩ => rfl
  rw [val_main_v39_apply, val_main_v38_apply, val_main_v29_apply, hidx, val_main_v28_apply]
  unfold val_main_v37 val_main_v20 val_main_v27
  rw [r_dvec, gR32, gR1, Ideal.mulf_def, Ideal.mulf_def]

/-- LAYER ONE: the two programs' hidden features agree. -/
theorem layer1 (i : Fin 100000) (c : Fin 32) :
    Cert.Spec.post 100000 32 (Cert.KernelIdeal.KS.v26 x0 x1 x7) (Cert.KernelIdeal.KS.v16 x0 x1 x7) (Cert.KernelIdeal.KS.v13 x7) (Cert.KernelIdeal.KS.v14 x2) (ix2 i c)
      = val_main_v46 (F := Ideal) x0 x1 x2 x7 (ix2 i c) := by
  have key := layer_eq (N := 100000) (E := 3200000) (C := 32) hN
    Cert.KernelIdeal.Gen.gather_S100000x32_S3200000x1_S3200000x32_1_0_n_n_0_1_132_wf
    Cert.KernelIdeal.Gen.scatter_S100000x32_S3200000x1_S3200000x32_1_0_0_1_wf
    Cert.ReferenceIdeal.Gen.gather_S100000x32_S3300000x1_S3300000x32_1_0_n_n_0_1_132_wf
    Cert.ReferenceIdeal.Gen.scatter_S100000x32_S3300000x1_S3300000x32_1_0_0_1_wf
    Cert.ReferenceIdeal.Gen.gather_S100000_S3300000x1_S3300000_n_0_n_n_0_1_1_wf
    (dval x7) (dval_nonneg x7) (val_main_v30 (F := Ideal) x0 x1) (fun c => x2 (ix1 c))
    (broadcastInDim Cert.KernelIdeal.S100000x32 ![] Cert.KernelIdeal.Gen.bcast_S_S100000x32 (constant (F := Ideal) Cert.KernelIdeal.S_ .f32 0x00000000#32))
    (val_main_v40 (F := Ideal))
    (fun j => zero_bcast Cert.KernelIdeal.Gen.bcast_S_S100000x32 j) (fun j => (val_main_v40_apply j).trans Ideal.ofBits_zero_f32)
    (Cert.KernelIdeal.KS.v6 x7) (Cert.KernelIdeal.KS.v22 x7) (val_main_v41 (F := Ideal) x7) (val_main_v36 (F := Ideal) x7)
    (val_main_v19 (F := Ideal) x7) (val_main_v26 (F := Ideal) x7)
    (H1 x7) (H2 x7) (H3 x7) (H4 x7) (H5 x7) (H6 x7) (H7 x7) (H8 x7) i c
  rw [post_apply, val_main_v46_apply, val_main_v45_apply, Ideal.maximumf_def, Ideal.addf_def, val_main_call0_v0_apply,
    val_main_call0_cst_apply, Ideal.ofBits_def, Ideal.ofBits_zero_f32, k_dcol, k_bias1, r_bias1]
  unfold Cert.KernelIdeal.KS.v26 Cert.KernelIdeal.KS.v23 val_main_v42
  rw [hscatter_eq, hscatter_eq, sK32, gK32, sR32, k16, r39]
  exact key

/-! ## Layer two -/

/-- Layer two's bias row, factored program. -/
theorem k_bias2 (c : Fin 8) : Cert.KernelIdeal.KS.v15 x4 (ix2 0 c) = x4 (ix1 c) := by
  unfold Cert.KernelIdeal.KS.v15
  refine broadcastInDim_apply _ _ _ (ix2 0 c) (ix1 c) fun a => ?_
  match a with
  | ⟨0, _⟩ => show c.val = if (8 : Nat) = 1 then 0 else c.val; rw [if_neg (by decide)]

/-- Layer two's bias array, edge-weighted program. -/
theorem r_bias2 (i : Fin 100000) (c : Fin 8) : val_main_v61 (F := Ideal) x4 (ix2 i c) = x4 (ix1 c) := by
  rw [val_main_v61_apply, val_main_v60_apply]
  exact congrArg x4 (funext fun a => match a with | ⟨0, _⟩ => rfl)

/-- Layer two's scaled projection (of the hidden features, equal in the two programs by layer one) is the plain
    projection times the row's degree factor. -/
theorem k27 : Cert.KernelIdeal.KS.v27 x0 x1 x2 x3 x7
    = fun j => val_main_v47 (F := Ideal) x0 x1 x2 x3 x7 j * ((dval x7 (j 0) : ℝ) : EReal) := by
  funext j
  obtain ⟨i, c, rfl⟩ : ∃ (i : Fin 100000) (c : Fin 8), j = ix2 i c := ⟨j 0, j 1, eq_ix2 j⟩
  show Cert.KernelIdeal.KS.v27 x0 x1 x2 x3 x7 (ix2 i c) = val_main_v47 (F := Ideal) x0 x1 x2 x3 x7 (ix2 i c) * ((dval x7 i : ℝ) : EReal)
  unfold Cert.KernelIdeal.KS.v27
  rw [lin_apply, val_main_v47_apply, k_dcol]
  refine congrArg (· * ((dval x7 i : ℝ) : EReal)) (Finset.sum_congr rfl fun k _ => ?_)
  rw [layer1 x0 x1 x2 x7 i k,
    show lidx_main_v47 (ix2 i c) k = ix2 i k from funext fun a => match a with | ⟨0, _⟩ => rfl | ⟨1, _⟩ => rfl,
    show ridx_main_v47 (ix2 i c) k = ix2 k c from funext fun a => match a with | ⟨0, _⟩ => rfl | ⟨1, _⟩ => rfl]

/-- Layer two's messages, edge-weighted program: the gathered row times the two gathered degree factors. -/
theorem r56 : val_main_v56 (F := Ideal) x0 x1 x2 x3 x7
    = fun j => Host.gather (rowGatherDims 100000 3300000 8
          Cert.ReferenceIdeal.Gen.gather_S100000x8_S3300000x1_S3300000x8_1_0_n_n_0_1_18_wf) (val_main_v47 (F := Ideal) x0 x1 x2 x3 x7)
          (val_main_v53 (F := Ideal) x7) j
        * (Host.gather (vecGatherDims 100000 3300000
              Cert.ReferenceIdeal.Gen.gather_S100000_S3300000x1_S3300000_n_0_n_n_0_1_1_wf) (fun q => ((dval x7 (q 0) : ℝ) : EReal))
              (val_main_v19 (F := Ideal) x7) (ix1 (j 0))
          * Host.gather (vecGatherDims 100000 3300000
              Cert.ReferenceIdeal.Gen.gather_S100000_S3300000x1_S3300000_n_0_n_n_0_1_1_wf) (fun q => ((dval x7 (q 0) : ℝ) : EReal))
              (val_main_v26 (F := Ideal) x7) (ix1 (j 0))) := by
  funext j
  obtain ⟨e, c, rfl⟩ : ∃ (e : Fin 3300000) (c : Fin 8), j = ix2 e c := ⟨j 0, j 1, eq_ix2 j⟩
  show val_main_v56 (F := Ideal) x0 x1 x2 x3 x7 (ix2 e c)
    = Host.gather (rowGatherDims 100000 3300000 8
          Cert.ReferenceIdeal.Gen.gather_S100000x8_S3300000x1_S3300000x8_1_0_n_n_0_1_18_wf) (val_main_v47 (F := Ideal) x0 x1 x2 x3 x7)
          (val_main_v53 (F := Ideal) x7) (ix2 e c)
        * (Host.gather (vecGatherDims 100000 3300000
              Cert.ReferenceIdeal.Gen.gather_S100000_S3300000x1_S3300000_n_0_n_n_0_1_1_wf) (fun q => ((dval x7 (q 0) : ℝ) : EReal))
              (val_main_v19 (F := Ideal) x7) (ix1 e)
          * Host.gather (vecGatherDims 100000 3300000
              Cert.ReferenceIdeal.Gen.gather_S100000_S3300000x1_S3300000_n_0_n_n_0_1_1_wf) (fun q => ((dval x7 (q 0) : ℝ) : EReal))
              (val_main_v26 (F := Ideal) x7) (ix1 e))
  have hidx : idx_main_v29 (idx_main_v55 (ix2 e c : Cert.ReferenceIdeal.S3300000x8.Idx)) = ix1 e :=
    funext fun a => match a with | ⟨0, _⟩ => rfl
  rw [val_main_v56_apply, val_main_v55_apply, val_main_v29_apply, hidx, val_main_v28_apply]
  unfold val_main_v54 val_main_v20 val_main_v27
  rw [r_dvec, gR8, gR1, Ideal.mulf_def, Ideal.mulf_def]

/-- LAYER TWO: the two programs' node features agree at every entry. -/
theorem layer2 (i : Fin 100000) (c : Fin 8) :
    Cert.Spec.post 100000 8 (Cert.KernelIdeal.KS.v37 x0 x1 x2 x3 x7) (Cert.KernelIdeal.KS.v27 x0 x1 x2 x3 x7) (Cert.KernelIdeal.KS.v13 x7) (Cert.KernelIdeal.KS.v15 x4) (ix2 i c)
      = val_main_v63 (F := Ideal) x0 x1 x2 x3 x4 x7 (ix2 i c) := by
  have key := layer_eq (N := 100000) (E := 3200000) (C := 8) hN
    Cert.KernelIdeal.Gen.gather_S100000x8_S3200000x1_S3200000x8_1_0_n_n_0_1_18_wf
    Cert.KernelIdeal.Gen.scatter_S100000x8_S3200000x1_S3200000x8_1_0_0_1_wf
    Cert.ReferenceIdeal.Gen.gather_S100000x8_S3300000x1_S3300000x8_1_0_n_n_0_1_18_wf
    Cert.ReferenceIdeal.Gen.scatter_S100000x8_S3300000x1_S3300000x8_1_0_0_1_wf
    Cert.ReferenceIdeal.Gen.gather_S100000_S3300000x1_S3300000_n_0_n_n_0_1_1_wf
    (dval x7) (dval_nonneg x7) (val_main_v47 (F := Ideal) x0 x1 x2 x3 x7) (fun c => x4 (ix1 c))
    (broadcastInDim Cert.KernelIdeal.S100000x8 ![] Cert.KernelIdeal.Gen.bcast_S_S100000x8 (constant (F := Ideal) Cert.KernelIdeal.S_ .f32 0x00000000#32))
    (val_main_v57 (F := Ideal))
    (fun j => zero_bcast Cert.KernelIdeal.Gen.bcast_S_S100000x8 j) (fun j => (val_main_v57_apply j).trans Ideal.ofBits_zero_f32)
    (Cert.KernelIdeal.KS.v6 x7) (Cert.KernelIdeal.KS.v22 x7) (val_main_v58 (F := Ideal) x7) (val_main_v53 (F := Ideal) x7)
    (val_main_v19 (F := Ideal) x7) (val_main_v26 (F := Ideal) x7)
    (H1 x7) (H2 x7) (H3 x7) (H4 x7) (H5 x7) (H6 x7) (H7 x7) (H8 x7) i c
  rw [post_apply, val_main_v63_apply, val_main_v62_apply, Ideal.maximumf_def, Ideal.addf_def, val_main_call1_v0_apply,
    val_main_call1_cst_apply, Ideal.ofBits_def, Ideal.ofBits_zero_f32, k_dcol, k_bias2, r_bias2]
  unfold Cert.KernelIdeal.KS.v37 Cert.KernelIdeal.KS.v34 val_main_v59
  rw [hscatter_eq, hscatter_eq, sK8, gK8, sR8, k27, r56]
  exact key

/-- THE NODE FEATURES of the two programs are one array. -/
theorem h2_eq : Cert.KernelIdeal.KS.v38 x0 x1 x2 x3 x4 x7 = val_main_v63 (F := Ideal) x0 x1 x2 x3 x4 x7 := by
  funext j
  obtain ⟨i, c, rfl⟩ : ∃ (i : Fin 100000) (c : Fin 8), j = ix2 i c := ⟨j 0, j 1, eq_ix2 j⟩
  unfold Cert.KernelIdeal.KS.v38
  exact layer2 x0 x1 x2 x3 x4 x7 i c

end Cert.Bridge

end
-- ==== Proof.Tail.lean ====
/-
  The two programs end alike. After the two layers both take the node features `h` and apply the same operations: the
  features summed per graph (a scatter-add at the graph index of each node), the node count per graph (ones
  scatter-added at the same index) cut off below at one, the quotient of the two — the mean over each graph's nodes —,
  the product with the last weight matrix, and the last bias added. The reference writes these as its last stages over
  its own node features; the kernel program's are one function `tail` of `h`. Stage by stage they are the same term.
-/
import proofs.«138896_j86277303042435_2_alg».proof.Proof.Gen.ReferenceIdeal.Read
import proofs.«138896_j86277303042435_2_alg».proof.Proof.KernelStages

noncomputable section

namespace Cert.Tail

open Idealize.ShloMosaic

/-- The reference's result is the common tail applied to the reference's node features. -/
theorem tail_eq (x0 : FVec Ideal Cert.KernelIdeal.S100000x1081 .f32) (x1 : FVec Ideal Cert.KernelIdeal.S1081x32 .f32)
    (x2 : FVec Ideal Cert.KernelIdeal.S32 .f32) (x3 : FVec Ideal Cert.KernelIdeal.S32x8 .f32) (x4 : FVec Ideal Cert.KernelIdeal.S8 .f32)
    (x5 : FVec Ideal Cert.KernelIdeal.S8x5 .f32) (x6 : FVec Ideal Cert.KernelIdeal.S5 .f32) (x7 : IVec Cert.KernelIdeal.S2x3200000 32)
    (x8 : IVec Cert.KernelIdeal.S100000 32) :
    Cert.ReferenceIdeal.Read.val_main_v79 (F := Ideal) x0 x1 x2 x3 x4 x5 x6 x7 x8
      = Cert.KernelIdeal.KS.tail x5 x6 x8 (Cert.ReferenceIdeal.Read.val_main_v63 (F := Ideal) x0 x1 x2 x3 x4 x7) := by
  unfold Cert.ReferenceIdeal.Read.val_main_v79 Cert.ReferenceIdeal.Read.val_main_v78 Cert.ReferenceIdeal.Read.val_main_v77 Cert.ReferenceIdeal.Read.val_main_v76 Cert.ReferenceIdeal.Read.val_main_v75
    Cert.ReferenceIdeal.Read.val_main_v74 Cert.ReferenceIdeal.Read.val_main_v73 Cert.ReferenceIdeal.Read.val_main_v72 Cert.ReferenceIdeal.Read.val_main_v71 Cert.ReferenceIdeal.Read.val_main_cst_14
    Cert.ReferenceIdeal.Read.val_main_v70 Cert.ReferenceIdeal.Read.val_main_v69 Cert.ReferenceIdeal.Read.val_main_v68 Cert.ReferenceIdeal.Read.val_main_cst_13 Cert.ReferenceIdeal.Read.val_main_v67
    Cert.ReferenceIdeal.Read.val_main_cst_12 Cert.ReferenceIdeal.Read.val_main_v66 Cert.ReferenceIdeal.Read.val_main_v65 Cert.ReferenceIdeal.Read.val_main_v64 Cert.ReferenceIdeal.Read.val_main_cst_11
    Cert.KernelIdeal.KS.tail
  generalize Cert.ReferenceIdeal.Read.val_main_v63 (F := Ideal) x0 x1 x2 x3 x4 x7 = h
  rfl

end Cert.Tail

end
-- ==== Proof.lean ====
/-
  A two-layer graph convolution with symmetric degree normalisation, mean-pooled over graphs and followed by a linear
  map: the kernel program and the reference compute the same result over the extended reals.

  Both programs read node features `x`, an edge list, a graph index per node and the layers' weights and biases. With
  `deg[i]` the number of edges into node `i` plus one for the node itself and `d = deg^(-1/2)`, a layer maps the
  node features `h` to `max (∑ over edges (s → i) and the self loop of d[i] · d[s] · (h · W)[s] + b) 0`.

  The reference appends one self loop per node to the edge list, gathers the projected rows `(h · W)[s]` along every
  edge, weights each message by `d[i] · d[s]` and scatter-adds the weighted messages at the targets. The kernel program
  counts the self loop as a dense `+1` in the degree; its first two node-level kernels carry `d[s]` on the projected
  rows, `((h · W)[s]) · d[s]`; the host aggregates these scaled rows over the edges of the list only; and the next
  kernel's epilogue adds the node's own scaled row and multiplies the sum by `d[i]`, adds the bias and applies the
  rectifier. The two agree because `d[i]` is a nonnegative real, and multiplication by a nonnegative real
  distributes over sums of extended reals; nothing else about the inputs is used, and the finiteness precondition
  is never opened. After the two layers both programs end with the same operations on the node features (`Tail`).

  The pieces: the three node-level kernels' result arrays as whole-array functions of their operand arrays
  (`Region0`, `Region1`, `Region2`); the kernel program's run with its result named, and that result read back to a
  term `KS.result` of the arguments (`KernelRun`, `KernelChain`, `KernelStages`); the node features after the two layers
  equal in the two programs (`Bridge`); the common tail (`Tail`). Here they are joined: both runs end with the result
  buffer at the reference's last stage applied to the kernel program's arguments.
-/
import proofs.«138896_j86277303042435_2_alg».proof.Defs
import proofs.«138896_j86277303042435_2_alg».proof.Proof.Gen.Kernel
import proofs.«138896_j86277303042435_2_alg».proof.Proof.Gen.Kernel.Skeleton
import proofs.«138896_j86277303042435_2_alg».proof.Proof.Gen.Kernel.Launch
import proofs.«138896_j86277303042435_2_alg».proof.Proof.Gen.Kernel.Points
import proofs.«138896_j86277303042435_2_alg».proof.Proof.Gen.Kernel.Frame
import proofs.«138896_j86277303042435_2_alg».proof.Proof.Gen.KernelIdeal
import proofs.«138896_j86277303042435_2_alg».proof.Proof.Gen.KernelIdeal.Skeleton
import proofs.«138896_j86277303042435_2_alg».proof.Proof.Gen.KernelIdeal.Launch
import proofs.«138896_j86277303042435_2_alg».proof.Proof.Gen.KernelIdeal.Points
import proofs.«138896_j86277303042435_2_alg».proof.Proof.Gen.KernelIdeal.Frame
import proofs.«138896_j86277303042435_2_alg».proof.Proof.Gen.ReferenceIdeal
import proofs.«138896_j86277303042435_2_alg».proof.Proof.Gen.Pre_finite_inputs
import proofs.«138896_j86277303042435_2_alg».proof.Proof.Gen.ReferenceIdeal.Run
import proofs.«138896_j86277303042435_2_alg».proof.Proof.Gen.ReferenceIdeal.Read
import proofs.«138896_j86277303042435_2_alg».proof.Proof.Region0
import proofs.«138896_j86277303042435_2_alg».proof.Proof.Region1
import proofs.«138896_j86277303042435_2_alg».proof.Proof.Region2
import proofs.«138896_j86277303042435_2_alg».proof.Proof.KernelRun
import proofs.«138896_j86277303042435_2_alg».proof.Proof.KernelChain
import proofs.«138896_j86277303042435_2_alg».proof.Proof.Bridge
import proofs.«138896_j86277303042435_2_alg».proof.Proof.Tail
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ
/-- So does the same program read over the extended reals. -/
theorem frame_kernelIdeal : Cert.frame_KernelIdeal := fun m ρ _ => Cert.KernelIdeal.Gen.frame m ρ
/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation. -/
theorem preserves : Cert.preserves_Kernel_KernelIdeal := trivial

/-- The kernel program's result term is the reference's last stage at the same arguments: the node features after the
    two layers agree, and the two programs apply the same tail to them. -/
theorem result_eq (x0 : FVec Ideal Cert.KernelIdeal.S100000x1081 .f32) (x1 : FVec Ideal Cert.KernelIdeal.S1081x32 .f32)
    (x2 : FVec Ideal Cert.KernelIdeal.S32 .f32) (x3 : FVec Ideal Cert.KernelIdeal.S32x8 .f32) (x4 : FVec Ideal Cert.KernelIdeal.S8 .f32)
    (x5 : FVec Ideal Cert.KernelIdeal.S8x5 .f32) (x6 : FVec Ideal Cert.KernelIdeal.S5 .f32) (x7 : IVec Cert.KernelIdeal.S2x3200000 32)
    (x8 : IVec Cert.KernelIdeal.S100000 32) :
    Cert.KernelIdeal.KS.result x0 x1 x2 x3 x4 x5 x6 x7 x8
      = Cert.ReferenceIdeal.Read.val_main_v79 (F := Ideal) x0 x1 x2 x3 x4 x5 x6 x7 x8 := by
  unfold Cert.KernelIdeal.KS.result
  rw [Cert.Bridge.h2_eq]
  exact (Cert.Tail.tail_eq x0 x1 x2 x3 x4 x5 x6 x7 x8).symm

/-- From memories that agree on the arguments both programs run, leave their arguments as launched, and end with the
    result buffer at the reference's last stage applied to the kernel program's arguments. -/
theorem algebraic : Cert.algebraic_KernelIdeal_ReferenceIdeal := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c).1.trans ((Cert.KernelIdeal.Chain.W7_result m ρ c (fun V c => Cert.KernelIdeal.Regions.final0 V c)
          (fun V c => Cert.KernelIdeal.Regions.final1 V c) (fun V c => Cert.KernelIdeal.Regions.final2 V c)).trans
          (result_eq _ _ _ _ _ _ _ _ _)), (h c).2⟩)
      (Cert.KernelIdeal.Chain.run_value m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v79_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
